-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128 : Shape := ⟨2, ![64, 128]⟩
abbrev S64x4096 : Shape := ⟨2, ![64, 4096]⟩
abbrev S128x512 : Shape := ⟨2, ![128, 512]⟩
abbrev S512 : Shape := ⟨1, ![512]⟩
abbrev S512x1024 : Shape := ⟨2, ![512, 1024]⟩
abbrev S1024 : Shape := ⟨1, ![1024]⟩
abbrev S1024x512 : Shape := ⟨2, ![1024, 512]⟩
abbrev S64 : Shape := ⟨1, ![64]⟩
abbrev S_ : Shape := ⟨0, ![]⟩

class Facts : Prop where
  bcast_S_S64x128 : S_.BroadcastsInDim S64x128 (![] : Fin 0 → Fin S64x128.rank)
  reducesTo_S64x128_S_d0_1 : S64x128.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg11 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  main_v58

def fn_part2 {F : FTy → Type} [FloatOps F] (main_arg7 : FVec F S512 .f32) (main_arg8 : FVec F S64 .f32) (main_arg9 : FVec F S64 .f32) (main_arg10 : FVec F S64 .f32) (main_arg11 : FVec F S64 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_v48 main_v49 main_v50

def fn_part1 {F : FTy → Type} [FloatOps F] (main_arg4 : FVec F S512x1024 .f32) (main_arg5 : FVec F S1024 .f32) (main_arg6 : FVec F S1024x512 .f32) (main_arg7 : FVec F S512 .f32) (main_arg8 : FVec F S64 .f32) (main_arg9 : FVec F S64 .f32) (main_arg10 : FVec F S64 .f32) (main_arg11 : FVec F S64 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x1024 .f32 := Host.absf main_arg4
  let main_cst_6 : FVec F S_ .f32 := constant S_ .f32 0x7F800000#32
  let main_v20 : FVec F S512x1024 .f32 := broadcastInDim S512x1024 ![] bcast_S_S512x1024 main_cst_6
  let main_v21 : IVec S512x1024 1 := cmpf .olt main_v19 main_v20
  let main_c_7 : IVec S_ 1 := constantI S_ 1 1#1
  let main_v22 : IVec S_ 1 := (fun x v => Host.reduce IntOp.andi x v reducesTo_S512x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x512 .f32 := Host.absf main_arg6
  let main_cst_10 : FVec F S_ .f32 := constant S_ .f32 0x7F800000#32
  let main_v30 : FVec F S1024x512 .f32 := broadcastInDim S1024x512 ![] bcast_S_S1024x512 main_cst_10
  let main_v31 : IVec S1024x512 1 := cmpf .olt main_v29 main_v30
  let main_c_11 : IVec S_ 1 := constantI S_ 1 1#1
  let main_v32 : IVec S_ 1 := (fun x v => Host.reduce IntOp.andi x v reducesTo_S1024x512_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S64x128 .f32) (main_arg1 : FVec F S64x4096 .f32) (main_arg2 : FVec F S128x512 .f32) (main_arg3 : FVec F S512 .f32) (main_arg4 : FVec F S512x1024 .f32) (main_arg5 : FVec F S1024 .f32) (main_arg6 : FVec F S1024x512 .f32) (main_arg7 : FVec F S512 .f32) (main_arg8 : FVec F S64 .f32) (main_arg9 : FVec F S64 .f32) (main_arg10 : FVec F S64 .f32) (main_arg11 : FVec F S64 .f32) : IVec S_ 1 :=
  let main_v0 : FVec F S64x128 .f32 := Host.absf main_arg0
  let main_cst : FVec F S_ .f32 := constant S_ .f32 0x7F800000#32
  let main_v1 : FVec F S64x128 .f32 := broadcastInDim S64x128 ![] bcast_S_S64x128 main_cst
  let main_v2 : IVec S64x128 1 := cmpf .olt main_v0 main_v1
  let main_c : IVec S_ 1 := constantI S_ 1 1#1
  let main_v3 : IVec S_ 1 := (fun x v => Host.reduce IntOp.andi x v reducesTo_S64x128_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  let main_v9 : FVec F S128x512 .f32 := Host.absf main_arg2
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_v13 main_v16
-- ==== Kernel.lean ====
abbrev S64x128 : Shape := ⟨2, ![64, 128]⟩
abbrev S64x4096 : Shape := ⟨2, ![64, 4096]⟩
abbrev S128x512 : Shape := ⟨2, ![128, 512]⟩
abbrev S512 : Shape := ⟨1, ![512]⟩
abbrev S512x1024 : Shape := ⟨2, ![512, 1024]⟩
abbrev S1024 : Shape := ⟨1, ![1024]⟩
abbrev S1024x512 : Shape := ⟨2, ![1024, 512]⟩
abbrev S64 : Shape := ⟨1, ![64]⟩
abbrev S64x512 : Shape := ⟨2, ![64, 512]⟩
abbrev S1x512 : Shape := ⟨2, ![1, 512]⟩
abbrev S_ : Shape := ⟨0, ![]⟩
abbrev S64x1024 : Shape := ⟨2, ![64, 1024]⟩
abbrev S1x1024 : Shape := ⟨2, ![1, 1024]⟩
abbrev S64x128x4 : Shape := ⟨3, ![64, 128, 4]⟩
abbrev S64x4x128 : Shape := ⟨3, ![64, 4, 128]⟩
abbrev S64x1 : Shape := ⟨2, ![64, 1]⟩
abbrev S64x4x4096 : Shape := ⟨3, ![64, 4, 4096]⟩
abbrev S64x4x512 : Shape := ⟨3, ![64, 4, 512]⟩
abbrev S64x1x512 : Shape := ⟨3, ![64, 1, 512]⟩
abbrev S1x64x1 : Shape := ⟨3, ![1, 64, 1]⟩
abbrev S64x64x512 : Shape := ⟨3, ![64, 64, 512]⟩
abbrev S64x4x64 : Shape := ⟨3, ![64, 4, 64]⟩
abbrev S64x4x4096x1 : Shape := ⟨4, ![64, 4, 4096, 1]⟩
abbrev S64x4x4096x2 : Shape := ⟨4, ![64, 4, 4096, 2]⟩
abbrev S64x4x8192 : Shape := ⟨3, ![64, 4, 8192]⟩
abbrev S64x8192x4 : Shape := ⟨3, ![64, 8192, 4]⟩

abbrev nBuf : Space → Nat
  | .hbm => 43
  | .vmem => 11
  | .smem => 0
  | _ => 0

abbrev bufTy : (tb : Table) → Fin (tcTables nBuf tb) → BufTy
  | .hbm, ⟨0, _⟩ => ⟨S64x128, .f32⟩
  | .hbm, ⟨1, _⟩ => ⟨S64x4096, .f32⟩
  | .hbm, ⟨2, _⟩ => ⟨S128x512, .f32⟩
  | .hbm, ⟨3, _⟩ => ⟨S512, .f32⟩
  | .hbm, ⟨4, _⟩ => ⟨S512x1024, .f32⟩
  | .hbm, ⟨5, _⟩ => ⟨S1024, .f32⟩
  | .hbm, ⟨6, _⟩ => ⟨S1024x512, .f32⟩
  | .hbm, ⟨7, _⟩ => ⟨S512, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64x512, .f32⟩
  | .hbm, ⟨13, _⟩ => ⟨S1x512, .f32⟩
  | .hbm, ⟨14, _⟩ => ⟨S64x512, .f32⟩
  | .hbm, ⟨15, _⟩ => ⟨S64x512, .f32⟩
  | .hbm, ⟨16, _⟩ => ⟨S_, .f32⟩
  | .hbm, ⟨17, _⟩ => ⟨S64x512, .f32⟩
  | .hbm, ⟨18, _⟩ => ⟨S64x512, .f32⟩
  | .hbm, ⟨19, _⟩ => ⟨S64x1024, .f32⟩
  | .hbm, ⟨20, _⟩ => ⟨S1x1024, .f32⟩
  | .hbm, ⟨21, _⟩ => ⟨S64x1024, .f32⟩
  | .hbm, ⟨22, _⟩ => ⟨S64x1024, .f32⟩
  | .hbm, ⟨23, _⟩ => ⟨S_, .f32⟩
  | .hbm, ⟨24, _⟩ => ⟨S64x1024, .f32⟩
  | .hbm, ⟨25, _⟩ => ⟨S64x1024, .f32⟩
  | .hbm, ⟨26, _⟩ => ⟨S64x512, .f32⟩
  | .hbm, ⟨27, _⟩ => ⟨S1x512, .f32⟩
  | .hbm, ⟨28, _⟩ => ⟨S64x512, .f32⟩
  | .hbm, ⟨29, _⟩ => ⟨S64x512, .f32⟩
  | .hbm, ⟨30, _⟩ => ⟨S64x128x4, .f32⟩
  | .hbm, ⟨31, _⟩ => ⟨S64x4x128, .f32⟩
  | .hbm, ⟨32, _⟩ => ⟨S64x1, .f32⟩
  | .hbm, ⟨33, _⟩ => ⟨S64x1, .f32⟩
  | .hbm, ⟨34, _⟩ => ⟨S64x1, .f32⟩
  | .hbm, ⟨35, _⟩ => ⟨S64x1, .f32⟩
  | .hbm, ⟨36, _⟩ => ⟨S64x4x4096, .f32⟩
  | .hbm, ⟨37, _⟩ => ⟨S64x4x4096, .f32⟩
  | .hbm, ⟨38, _⟩ => ⟨S64x4x4096x1, .f32⟩
  | .hbm, ⟨39, _⟩ => ⟨S64x4x4096x1, .f32⟩
  | .hbm, ⟨40, _⟩ => ⟨S64x4x4096x2, .f32⟩
  | .hbm, ⟨41, _⟩ => ⟨S64x4x8192, .f32⟩
  | .hbm, ⟨42, _⟩ => ⟨S64x8192x4, .f32⟩
  | .local _ .vmem, ⟨0, _⟩ => ⟨S64x512, .f32⟩
  | .local _ .vmem, ⟨1, _⟩ => ⟨S64x512, .f32⟩
  | .local _ .vmem, ⟨2, _⟩ => ⟨S64x1, .f32⟩
  | .local _ .vmem, ⟨3, _⟩ => ⟨S64x1, .f32⟩
  | .local _ .vmem, ⟨4, _⟩ => ⟨S64x1, .f32⟩
  | .local _ .vmem, ⟨5, _⟩ => ⟨S64x1, .f32⟩
  | .local _ .vmem, ⟨6, _⟩ => ⟨S64x4x128, .f32⟩
  | .local _ .vmem, ⟨7, _⟩ => ⟨S64x4x512, .f32⟩
  | .local _ .vmem, ⟨8, _⟩ => ⟨S64x4x512, .f32⟩
  | .local _ .vmem, ⟨9, _⟩ => ⟨S64x4x512, .f32⟩
  | .local _ .vmem, ⟨10, _⟩ => ⟨S64x4x512, .f32⟩
  | _, _ => ⟨S64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_cst : Ref sig .tc := ⟨.hbm, 16, rfl⟩
abbrev main_call0_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_call1_cst : Ref sig .tc := ⟨.hbm, 23, rfl⟩
abbrev main_call1_v0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20_0 : Ref sig .tc := ⟨.hbm, 36, rfl⟩
abbrev main_v20_1 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x4x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x4x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  bcast_S_S64x512 : S_.BroadcastsInDim S64x512 (![] : Fin 0 → Fin S64x512.rank)
  bcast_S1024_S1x1024_1 : S1024.BroadcastsInDim S1x1024 (![1] : Fin 1 → Fin S1x1024.rank)
  bcast_S1x1024_S64x1024_0_1 : S1x1024.BroadcastsInDim S64x1024 (![0, 1] : Fin 2 → Fin S64x1024.rank)
  bcast_S_S64x1024 : S_.BroadcastsInDim S64x1024 (![] : Fin 0 → Fin S64x1024.rank)
  shapeCasts_S64x512_S64x128x4 : S64x512.ShapeCasts S64x128x4
  transposes_S64x128x4_S64x4x128_0_2_1 : S64x128x4.Transposes [0, 2, 1] S64x4x128
  shapeCasts_S64_S64x1 : S64.ShapeCasts S64x1
  inb_S64x512_S64x512_0_0 : ∀ a, (![0, 0] : Fin 2 → Nat) a + S64x512.size a ≤ S64x512.size a
  h_S64x512 : 0 < S64x512.numel
  shapeCasts_S64x512_S64x1x512 : S64x512.ShapeCasts S64x1x512
  inb_S64x1_S64x1_0_0 : ∀ a, (![0, 0] : Fin 2 → Nat) a + S64x1.size a ≤ S64x1.size a
  h_S64x1 : 0 < S64x1.numel
  shapeCasts_S64x1_S64x1 : S64x1.ShapeCasts S64x1
  shapeCasts_S64x1_S1x64x1 : S64x1.ShapeCasts S1x64x1
  broadcasts_S64x1x512_S64x64x512 : S64x1x512.Broadcasts S64x64x512
  broadcasts_S1x64x1_S64x64x512 : S1x64x1.Broadcasts S64x64x512
  bitsLt_bf16_f32 : FTy.bits .bf16 < FTy.bits .f32
  inb_S64x4x128_S64x4x128_0_0_0 : ∀ a, (![0, 0, 0] : Fin 3 → Nat) a + S64x4x128.size a ≤ S64x4x128.size a
  h_S64x4x128 : 0 < S64x4x128.numel
  shapeCasts_S64x4x128_S64x4x128 : S64x4x128.ShapeCasts S64x4x128
  slices_S64x4x128_o0_0_0_S64x4x64 : S64x4x128.Slices ![0, 0, 0] S64x4x64
  slices_S64x4x128_o0_0_64_S64x4x64 : S64x4x128.Slices ![0, 0, 64] S64x4x64
  inb_S64x4x512_S64x4x512_0_0_0 : ∀ a, (![0, 0, 0] : Fin 3 → Nat) a + S64x4x512.size a ≤ S64x4x512.size a
  h_S64x4x512 : 0 < S64x4x512.numel
  bcast_S64x4x4096_S64x4x4096x1_0_1_2 : S64x4x4096.BroadcastsInDim S64x4x4096x1 (![0, 1, 2] : Fin 3 → Fin S64x4x4096x1.rank)
  concatenates_S64x4x4096x1_S64x4x4096x1_S64x4x4096x2_d3 : Shape.Concatenates [S64x4x4096x1, S64x4x4096x1] S64x4x4096x2 3
  shapeCasts_S64x4x4096x2_S64x4x8192 : S64x4x4096x2.ShapeCasts S64x4x8192
  transposes_S64x4x8192_S64x8192x4_0_2_1 : S64x4x8192.Transposes [0, 2, 1] S64x8192x4
  dot_S64x128_S128x512_S64x512_1_0_0_1_n_n_wf : DotDims.WF S64x128 S128x512 S64x512 [1] [0] [0] [1] [] []
  dot_S64x512_S512x1024_S64x1024_1_0_0_1_n_n_wf : DotDims.WF S64x512 S512x1024 S64x1024 [1] [0] [0] [1] [] []
  dot_S64x1024_S1024x512_S64x512_1_0_0_1_n_n_wf : DotDims.WF S64x1024 S1024x512 S64x512 [1] [0] [0] [1] [] []
  dot_S64x4x64_S64x64x512_S64x4x512_2_1_1_2_0_0_wf : DotDims.WF S64x4x64 S64x64x512 S64x4x512 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x512.size a ≤ S64x4096.size a
  hwx0_0 : ∀ i : grid0.Coords, EltTy.bits .f32 = 32 ∨ (Rect.block (s := S64x4096) S64x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1.size a ≤ S64x1.size a
  hwx0_1 : ∀ i : grid0.Coords, EltTy.bits .f32 = 32 ∨ (Rect.block (s := S64x1) S64x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .f32 = 32 ∨ (Rect.block (s := S64x1) S64x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S64x1.size a
  hwx0_4 : ∀ i : grid0.Coords, EltTy.bits .f32 = 32 ∨ (Rect.block (s := S64x1) S64x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x4x128.size a ≤ S64x4x128.size a
  hwx0_5 : ∀ i : grid0.Coords, EltTy.bits .f32 = 32 ∨ (Rect.block (s := S64x4x128) S64x4x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x4x512.size a ≤ S64x4x4096.size a
  hwx0_6 : ∀ i : grid0.Coords, EltTy.bits .f32 = 32 ∨ (Rect.block (s := S64x4x4096) S64x4x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x4x512.size a ≤ S64x4x4096.size a
  hwx0_7 : ∀ i : grid0.Coords, EltTy.bits .f32 = 32 ∨ (Rect.block (s := S64x4x4096) S64x4x512.size (cc0_transform_7 i) (hinb0_7 i)).WholeWords (EltTy.packing .f32)

variable [Facts₀]

def dot_S64x128_S128x512_S64x512_1_0_0_1_n_n : DotDims S64x128 S128x512 S64x512 where
  lhsContracting := [1]
  rhsContracting := [0]
  lhsNonContracting := [0]
  rhsNonContracting := [1]
  lhsBatch := []
  rhsBatch := []
  wf := dot_S64x128_S128x512_S64x512_1_0_0_1_n_n_wf
def dot_S64x512_S512x1024_S64x1024_1_0_0_1_n_n : DotDims S64x512 S512x1024 S64x1024 where
  lhsContracting := [1]
  rhsContracting := [0]
  lhsNonContracting := [0]
  rhsNonContracting := [1]
  lhsBatch := []
  rhsBatch := []
  wf := dot_S64x512_S512x1024_S64x1024_1_0_0_1_n_n_wf
def dot_S64x1024_S1024x512_S64x512_1_0_0_1_n_n : DotDims S64x1024 S1024x512 S64x512 where
  lhsContracting := [1]
  rhsContracting := [0]
  lhsNonContracting := [0]
  rhsNonContracting := [1]
  lhsBatch := []
  rhsBatch := []
  wf := dot_S64x1024_S1024x512_S64x512_1_0_0_1_n_n_wf
def dot_S64x4x64_S64x64x512_S64x4x512_2_1_1_2_0_0 : DotDims S64x4x64 S64x64x512 S64x4x512 where
  lhsContracting := [2]
  rhsContracting := [1]
  lhsNonContracting := [1]
  rhsNonContracting := [2]
  lhsBatch := [0]
  rhsBatch := [0]
  wf := dot_S64x4x64_S64x64x512_S64x4x512_2_1_1_2_0_0_wf

abbrev win0_0 : Pipeline.Window sig grid0 :=
  Pipeline.Window.ofSpec (Memref.whole main_arg1) S64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S64x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S64x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S64x4x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20_0) S64x4x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v20_1) S64x4x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S64x128 : Shape := ⟨2, ![64, 128]⟩
abbrev S64x4096 : Shape := ⟨2, ![64, 4096]⟩
abbrev S128x512 : Shape := ⟨2, ![128, 512]⟩
abbrev S512 : Shape := ⟨1, ![512]⟩
abbrev S512x1024 : Shape := ⟨2, ![512, 1024]⟩
abbrev S1024 : Shape := ⟨1, ![1024]⟩
abbrev S1024x512 : Shape := ⟨2, ![1024, 512]⟩
abbrev S64 : Shape := ⟨1, ![64]⟩
abbrev S64x4096x1 : Shape := ⟨3, ![64, 4096, 1]⟩
abbrev S1x1x64 : Shape := ⟨3, ![1, 1, 64]⟩
abbrev S64x4096x64 : Shape := ⟨3, ![64, 4096, 64]⟩
abbrev S64x512 : Shape := ⟨2, ![64, 512]⟩
abbrev S1x512 : Shape := ⟨2, ![1, 512]⟩
abbrev S_ : Shape := ⟨0, ![]⟩
abbrev S64x1024 : Shape := ⟨2, ![64, 1024]⟩
abbrev S1x1024 : Shape := ⟨2, ![1, 1024]⟩
abbrev S64x128x4 : Shape := ⟨3, ![64, 128, 4]⟩
abbrev S64x64x4 : Shape := ⟨3, ![64, 64, 4]⟩
abbrev S64x4096x4 : Shape := ⟨3, ![64, 4096, 4]⟩
abbrev S64x4096x1x4 : Shape := ⟨4, ![64, 4096, 1, 4]⟩
abbrev S64x4096x2x4 : Shape := ⟨4, ![64, 4096, 2, 4]⟩
abbrev S64x8192x4 : Shape := ⟨3, ![64, 8192, 4]⟩

abbrev nBuf : Space → Nat
  | .hbm => 59
  | .vmem => 0
  | .smem => 0
  | _ => 0

abbrev bufTy : (tb : Table) → Fin (tcTables nBuf tb) → BufTy
  | .hbm, ⟨0, _⟩ => ⟨S64x128, .f32⟩
  | .hbm, ⟨1, _⟩ => ⟨S64x4096, .f32⟩
  | .hbm, ⟨2, _⟩ => ⟨S128x512, .f32⟩
  | .hbm, ⟨3, _⟩ => ⟨S512, .f32⟩
  | .hbm, ⟨4, _⟩ => ⟨S512x1024, .f32⟩
  | .hbm, ⟨5, _⟩ => ⟨S1024, .f32⟩
  | .hbm, ⟨6, _⟩ => ⟨S1024x512, .f32⟩
  | .hbm, ⟨7, _⟩ => ⟨S512, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64x4096x1, .f32⟩
  | .hbm, ⟨13, _⟩ => ⟨S1x1x64, .f32⟩
  | .hbm, ⟨14, _⟩ => ⟨S64x4096x64, .f32⟩
  | .hbm, ⟨15, _⟩ => ⟨S64x4096x64, .f32⟩
  | .hbm, ⟨16, _⟩ => ⟨S64x4096x64, .f32⟩
  | .hbm, ⟨17, _⟩ => ⟨S1x1x64, .f32⟩
  | .hbm, ⟨18, _⟩ => ⟨S64x4096x64, .f32⟩
  | .hbm, ⟨19, _⟩ => ⟨S64x4096x64, .f32⟩
  | .hbm, ⟨20, _⟩ => ⟨S64x4096x64, .f32⟩
  | .hbm, ⟨21, _⟩ => ⟨S64x4096x64, .f32⟩
  | .hbm, ⟨22, _⟩ => ⟨S64x4096x64, .f32⟩
  | .hbm, ⟨23, _⟩ => ⟨S1x1x64, .f32⟩
  | .hbm, ⟨24, _⟩ => ⟨S64x4096x64, .f32⟩
  | .hbm, ⟨25, _⟩ => ⟨S64x4096x64, .f32⟩
  | .hbm, ⟨26, _⟩ => ⟨S64x4096x64, .f32⟩
  | .hbm, ⟨27, _⟩ => ⟨S1x1x64, .f32⟩
  | .hbm, ⟨28, _⟩ => ⟨S64x4096x64, .f32⟩
  | .hbm, ⟨29, _⟩ => ⟨S64x4096x64, .f32⟩
  | .hbm, ⟨30, _⟩ => ⟨S64x4096x64, .f32⟩
  | .hbm, ⟨31, _⟩ => ⟨S64x4096x64, .f32⟩
  | .hbm, ⟨32, _⟩ => ⟨S64x512, .f32⟩
  | .hbm, ⟨33, _⟩ => ⟨S1x512, .f32⟩
  | .hbm, ⟨34, _⟩ => ⟨S64x512, .f32⟩
  | .hbm, ⟨35, _⟩ => ⟨S64x512, .f32⟩
  | .hbm, ⟨36, _⟩ => ⟨S_, .f32⟩
  | .hbm, ⟨37, _⟩ => ⟨S64x512, .f32⟩
  | .hbm, ⟨38, _⟩ => ⟨S64x512, .f32⟩
  | .hbm, ⟨39, _⟩ => ⟨S64x1024, .f32⟩
  | .hbm, ⟨40, _⟩ => ⟨S1x1024, .f32⟩
  | .hbm, ⟨41, _⟩ => ⟨S64x1024, .f32⟩
  | .hbm, ⟨42, _⟩ => ⟨S64x1024, .f32⟩
  | .hbm, ⟨43, _⟩ => ⟨S_, .f32⟩
  | .hbm, ⟨44, _⟩ => ⟨S64x1024, .f32⟩
  | .hbm, ⟨45, _⟩ => ⟨S64x1024, .f32⟩
  | .hbm, ⟨46, _⟩ => ⟨S64x512, .f32⟩
  | .hbm, ⟨47, _⟩ => ⟨S1x512, .f32⟩
  | .hbm, ⟨48, _⟩ => ⟨S64x512, .f32⟩
  | .hbm, ⟨49, _⟩ => ⟨S64x512, .f32⟩
  | .hbm, ⟨50, _⟩ => ⟨S64x128x4, .f32⟩
  | .hbm, ⟨51, _⟩ => ⟨S64x64x4, .f32⟩
  | .hbm, ⟨52, _⟩ => ⟨S64x4096x4, .f32⟩
  | .hbm, ⟨53, _⟩ => ⟨S64x64x4, .f32⟩
  | .hbm, ⟨54, _⟩ => ⟨S64x4096x4, .f32⟩
  | .hbm, ⟨55, _⟩ => ⟨S64x4096x1x4, .f32⟩
  | .hbm, ⟨56, _⟩ => ⟨S64x4096x1x4, .f32⟩
  | .hbm, ⟨57, _⟩ => ⟨S64x4096x2x4, .f32⟩
  | .hbm, ⟨58, _⟩ => ⟨S64x8192x4, .f32⟩
  | _, _ => ⟨S64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_cst : Ref sig .tc := ⟨.hbm, 36, rfl⟩
abbrev main_call0_v0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call1_cst : Ref sig .tc := ⟨.hbm, 43, rfl⟩
abbrev main_call1_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]

class Facts₀ : Prop where
  bcast_S64x4096_S64x4096x1_0_1 : S64x4096.BroadcastsInDim S64x4096x1 (![0, 1] : Fin 2 → Fin S64x4096x1.rank)
  bcast_S64_S1x1x64_2 : S64.BroadcastsInDim S1x1x64 (![2] : Fin 1 → Fin S1x1x64.rank)
  bcast_S64x4096x1_S64x4096x64_0_1_2 : S64x4096x1.BroadcastsInDim S64x4096x64 (![0, 1, 2] : Fin 3 → Fin S64x4096x64.rank)
  bcast_S1x1x64_S64x4096x64_0_1_2 : S1x1x64.BroadcastsInDim S64x4096x64 (![0, 1, 2] : Fin 3 → Fin S64x4096x64.rank)
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  bcast_S_S64x512 : S_.BroadcastsInDim S64x512 (![] : Fin 0 → Fin S64x512.rank)
  bcast_S1024_S1x1024_1 : S1024.BroadcastsInDim S1x1024 (![1] : Fin 1 → Fin S1x1024.rank)
  bcast_S1x1024_S64x1024_0_1 : S1x1024.BroadcastsInDim S64x1024 (![0, 1] : Fin 2 → Fin S64x1024.rank)
  bcast_S_S64x1024 : S_.BroadcastsInDim S64x1024 (![] : Fin 0 → Fin S64x1024.rank)
  shapeCasts_S64x512_S64x128x4 : S64x512.ShapeCasts S64x128x4
  slices_S64x128x4_S64x64x4_0_0_0 : S64x128x4.Slices ![0, 0, 0] S64x64x4
  slices_S64x128x4_S64x64x4_0_64_0 : S64x128x4.Slices ![0, 64, 0] S64x64x4
  bcast_S64x4096x4_S64x4096x1x4_0_1_3 : S64x4096x4.BroadcastsInDim S64x4096x1x4 (![0, 1, 3] : Fin 3 → Fin S64x4096x1x4.rank)
  concatenates_S64x4096x1x4_S64x4096x1x4_S64x4096x2x4_d2 : Shape.Concatenates [S64x4096x1x4, S64x4096x1x4] S64x4096x2x4 2
  shapeCasts_S64x4096x2x4_S64x8192x4 : S64x4096x2x4.ShapeCasts S64x8192x4
  dot_S64x128_S128x512_S64x512_1_0_0_1_n_n_wf : DotDims.WF S64x128 S128x512 S64x512 [1] [0] [0] [1] [] []
  dot_S64x512_S512x1024_S64x1024_1_0_0_1_n_n_wf : DotDims.WF S64x512 S512x1024 S64x1024 [1] [0] [0] [1] [] []
  dot_S64x1024_S1024x512_S64x512_1_0_0_1_n_n_wf : DotDims.WF S64x1024 S1024x512 S64x512 [1] [0] [0] [1] [] []
  dot_S64x4096x64_S64x64x4_S64x4096x4_2_1_1_2_0_0_wf : DotDims.WF S64x4096x64 S64x64x4 S64x4096x4 [2] [1] [1] [2] [0] [0]

variable [Facts₀]

def dot_S64x128_S128x512_S64x512_1_0_0_1_n_n : DotDims S64x128 S128x512 S64x512 where
  lhsContracting := [1]
  rhsContracting := [0]
  lhsNonContracting := [0]
  rhsNonContracting := [1]
  lhsBatch := []
  rhsBatch := []
  wf := dot_S64x128_S128x512_S64x512_1_0_0_1_n_n_wf
def dot_S64x512_S512x1024_S64x1024_1_0_0_1_n_n : DotDims S64x512 S512x1024 S64x1024 where
  lhsContracting := [1]
  rhsContracting := [0]
  lhsNonContracting := [0]
  rhsNonContracting := [1]
  lhsBatch := []
  rhsBatch := []
  wf := dot_S64x512_S512x1024_S64x1024_1_0_0_1_n_n_wf
def dot_S64x1024_S1024x512_S64x512_1_0_0_1_n_n : DotDims S64x1024 S1024x512 S64x512 where
  lhsContracting := [1]
  rhsContracting := [0]
  lhsNonContracting := [0]
  rhsNonContracting := [1]
  lhsBatch := []
  rhsBatch := []
  wf := dot_S64x1024_S1024x512_S64x512_1_0_0_1_n_n_wf
def dot_S64x4096x64_S64x64x4_S64x4096x4_2_1_1_2_0_0 : DotDims S64x4096x64 S64x64x4 S64x4096x4 where
  lhsContracting := [2]
  rhsContracting := [1]
  lhsNonContracting := [1]
  rhsNonContracting := [2]
  lhsBatch := [0]
  rhsBatch := [0]
  wf := dot_S64x4096x64_S64x64x4_S64x4096x4_2_1_1_2_0_0_wf

class Facts : Prop extends Facts₀ where

variable [Facts]
-- ==== Proof.Spec.lean ====
/-
  The function both programs compute, over the extended reals.

  For a batch row `b`, a sequence position `s` and a basis index `n`, the basis function is
    h(b, s, n) = exp(-(α_n · (t_{b,s} − μ_n))²) · cos(β_n · t_{b,s} + γ_n).
  The coefficient matrix of row `b` is read off a flat row of 512 numbers: ω(b, n', r) = coeff(b, 4·n' + r)
  for n' < 128, r < 4.  The result has twice the sequence length: position p = 2·s + e takes the basis functions at
  s and contracts them with the e-th half of the coefficient rows,
    B(b, p, r) = Σ_{n < 64} h(b, p / 2, n) · ω(b, 64·(p % 2) + n, r).
  Nothing here needs finiteness: the only laws used to meet this form are commutativity of the product
  and 0 − x = −x, both valid on all extended reals.
-/
import Idealize.ShloMosaic.PureOps.Ideal
import Idealize.ShloMosaic.Lib.ValueIdx

noncomputable section

open Idealize.ShloMosaic Idealize.ShloMosaic.ValueIdx
open scoped BigOperators

namespace Cert.SubspaceBasis

/-- The basis function of one sample `x` and one set of parameters: exp(-(α·(x − μ))²) · cos(β·x + γ). -/
def basisAt (x mu alpha beta gamma : EReal) : EReal :=
  Ideal.exp (-((alpha * (x - mu)) * (alpha * (x - mu)))) * Ideal.cos (beta * x + gamma)

/-- The basis function h(b, s, n) of the sample `t b s` and the n-th parameters. -/
def basis (t : FVec Ideal ⟨2, ![64, 4096]⟩ .f32) (mu alpha beta gamma : FVec Ideal ⟨1, ![64]⟩ .f32)
    (b : Fin 64) (s : Fin 4096) (n : Fin 64) : EReal :=
  basisAt (t (ix2 b s)) (mu (ix1 n)) (alpha (ix1 n)) (beta (ix1 n)) (gamma (ix1 n))

theorem half_lt (p : Fin 8192) : p.val / 2 < 4096 := by have := p.isLt; omega

theorem col_lt (p : Fin 8192) (n : Fin 64) (r : Fin 4) : (64 * (p.val % 2) + n.val) * 4 + r.val < 512 := by
  have := p.isLt; have := n.isLt; have := r.isLt; omega

/-- The coefficient ω(b, 64·e + n, r) as an entry of the flat coefficient row. -/
def omega (coeff : FVec Ideal ⟨2, ![64, 512]⟩ .f32) (b : Fin 64) (p : Fin 8192) (n : Fin 64) (r : Fin 4) : EReal :=
  coeff (ix2 b ⟨(64 * (p.val % 2) + n.val) * 4 + r.val, col_lt p n r⟩)

/-- The result B(b, p, r). -/
def result (t : FVec Ideal ⟨2, ![64, 4096]⟩ .f32) (mu alpha beta gamma : FVec Ideal ⟨1, ![64]⟩ .f32)
    (coeff : FVec Ideal ⟨2, ![64, 512]⟩ .f32) : FVec Ideal ⟨3, ![64, 8192, 4]⟩ .f32 :=
  fun i => ∑ n : Fin 64, basis t mu alpha beta gamma (i 0) ⟨(i 1).val / 2, half_lt (i 1)⟩ n * omega coeff (i 0) (i 1) n (i 2)

/-- Subtracting from zero is negation, on every extended real. -/
theorem zero_sub_eq_neg (x : EReal) : (0 : EReal) - x = -x := by rw [sub_eq_add_neg, zero_add]

/-- A sum of products with the factors exchanged. -/
theorem sum_mul_comm {ι : Type} [Fintype ι] (f g : ι → EReal) : ∑ k, f k * g k = ∑ k, g k * f k :=
  Finset.sum_congr rfl fun k _ => mul_comm (f k) (g k)

end Cert.SubspaceBasis

end
-- ==== Proof.RefIsSpec.lean ====
/-
  The reference computes the specification.

  Read at an index (b, p, r), the reference's last reshape takes the entry (b, p / 2, p % 2, r) of the
  concatenation of its two contractions: the first for even p, the second for odd p.  Each contraction is the sum
  over n of the basis function h(b, p / 2, n) times a slice of the coefficient rows reshaped to [64, 128, 4]:
  rows 0..63 for the first, rows 64..127 for the second, that is coeff(b, 4·(64·e + n) + r).
-/
import proofs.«168585_j75015898792235_1_alg».proof.Proof.Gen.ReferenceIdeal.Read
import proofs.«168585_j75015898792235_1_alg».proof.Proof.Spec

noncomputable section

open Idealize.ShloMosaic Idealize.ShloMosaic.ValueIdx Idealize.ShloMosaic.TcCoe
open scoped BigOperators

namespace Cert.ReferenceIdeal.RefValue

open Cert.ReferenceIdeal Cert.ReferenceIdeal.Gen Cert.ReferenceIdeal.Read Cert.SubspaceBasis

variable (x0 : (⟨S64x128, .f32⟩ : BufTy).Contents (Elt Ideal)) (x1 : (⟨S64x4096, .f32⟩ : BufTy).Contents (Elt Ideal))
  (x2 : (⟨S128x512, .f32⟩ : BufTy).Contents (Elt Ideal)) (x3 : (⟨S512, .f32⟩ : BufTy).Contents (Elt Ideal))
  (x4 : (⟨S512x1024, .f32⟩ : BufTy).Contents (Elt Ideal)) (x5 : (⟨S1024, .f32⟩ : BufTy).Contents (Elt Ideal))
  (x6 : (⟨S1024x512, .f32⟩ : BufTy).Contents (Elt Ideal)) (x7 : (⟨S512, .f32⟩ : BufTy).Contents (Elt Ideal))
  (x8 x9 x10 x11 : (⟨S64, .f32⟩ : BufTy).Contents (Elt Ideal))

/-- The elementwise stage of the reference at (b, s, n) is the basis function. -/
theorem basis_stage (b : Fin 64) (s : Fin 4096) (n : Fin 64) :
    val_main_v19 (F := Ideal) x1 x8 x9 x10 x11 (ix3 b s n) = basis x1 x8 x9 x10 x11 b s n := by
  rw [val_main_v19_apply, val_main_v10_apply, val_main_v9_apply, val_main_v8_apply, val_main_v7_apply, val_main_v6_apply,
    val_main_v5_apply, val_main_v4_apply, val_main_v2_apply, val_main_v0_apply, val_main_v3_apply, val_main_v1_apply,
    val_main_v18_apply, val_main_v17_apply, val_main_v14_apply, val_main_v12_apply, val_main_v11_apply, val_main_v13_apply,
    val_main_v0_apply, val_main_v16_apply, val_main_v15_apply]
  have e1 : idx_main_v0 (idx_main_v2 (ix3 b s n)) = ix2 b s := funext fun a => Fin.ext (by
    match a with | ⟨0, _⟩ => rfl | ⟨1, _⟩ => rfl)
  have e8 : idx_main_v1 (idx_main_v3 (ix3 b s n)) = ix1 n := funext fun a => Fin.ext (by match a with | ⟨0, _⟩ => rfl)
  have e9 : idx_main_v5 (idx_main_v6 (ix3 b s n)) = ix1 n := funext fun a => Fin.ext (by match a with | ⟨0, _⟩ => rfl)
  have e10 : idx_main_v11 (idx_main_v12 (ix3 b s n)) = ix1 n := funext fun a => Fin.ext (by match a with | ⟨0, _⟩ => rfl)
  have e11 : idx_main_v15 (idx_main_v16 (ix3 b s n)) = ix1 n := funext fun a => Fin.ext (by match a with | ⟨0, _⟩ => rfl)
  rw [e1, e8, e9, e10, e11]
  rfl

/-- The flat coefficient rows, as the reference computes them (the small network on `f`). -/
abbrev coeffRows : (⟨S64x512, .f32⟩ : BufTy).Contents (Elt Ideal) := val_main_v33 (F := Ideal) x0 x2 x3 x4 x5 x6 x7

theorem flat_lt (k : Fin 128) (r : Fin 4) : k.val * 4 + r.val < 512 := by have := k.isLt; have := r.isLt; omega

/-- The coefficient rows reshaped to [64, 128, 4]: entry (b, k, r) is entry 4·k + r of row b. -/
theorem reshaped_rows (b : Fin 64) (k : Fin 128) (r : Fin 4) :
    val_main_v34 (F := Ideal) x0 x2 x3 x4 x5 x6 x7 (ix3 b k r) = coeffRows x0 x2 x3 x4 x5 x6 x7 (ix2 b ⟨k.val * 4 + r.val, flat_lt k r⟩) := by
  rw [val_main_v34_apply]
  refine congrArg _ (funext fun a => Fin.ext ?_)
  have hb := b.isLt; have hk := k.isLt; have hr := r.isLt
  match a with
  | ⟨0, _⟩ => show ((b.val * 128 + k.val) * 4 + r.val) / 512 = b.val; omega
  | ⟨1, _⟩ => show ((b.val * 128 + k.val) * 4 + r.val) % 512 = k.val * 4 + r.val; omega

/-- The first half of the reshaped rows. -/
theorem lower_rows (b : Fin 64) (n : Fin 64) (r : Fin 4) :
    val_main_v35 (F := Ideal) x0 x2 x3 x4 x5 x6 x7 (ix3 b n r)
      = coeffRows x0 x2 x3 x4 x5 x6 x7 (ix2 b ⟨(n.val) * 4 + r.val, by have := n.isLt; have := r.isLt; omega⟩) := by
  rw [val_main_v35_apply]
  have e : idx_main_v35 (ix3 b n r) = ix3 b ⟨n.val, by have := n.isLt; omega⟩ r := funext fun a => Fin.ext (by
    match a with | ⟨0, _⟩ => rfl | ⟨1, _⟩ => rfl | ⟨2, _⟩ => rfl)
  rw [e, reshaped_rows]

/-- The second half of the reshaped rows. -/
theorem upper_rows (b : Fin 64) (n : Fin 64) (r : Fin 4) :
    val_main_v37 (F := Ideal) x0 x2 x3 x4 x5 x6 x7 (ix3 b n r)
      = coeffRows x0 x2 x3 x4 x5 x6 x7 (ix2 b ⟨(64 + n.val) * 4 + r.val, by have := n.isLt; have := r.isLt; omega⟩) := by
  rw [val_main_v37_apply]
  have e : idx_main_v37 (ix3 b n r) = ix3 b ⟨64 + n.val, by have := n.isLt; omega⟩ r := funext fun a => Fin.ext (by
    match a with | ⟨0, _⟩ => rfl | ⟨1, _⟩ => rfl | ⟨2, _⟩ => rfl)
  rw [e, reshaped_rows]

/-- The first contraction at (b, s, r): the basis functions against the first half of the rows. -/
theorem contraction_lower (b : Fin 64) (s : Fin 4096) (r : Fin 4) :
    val_main_v36 (F := Ideal) x0 x1 x2 x3 x4 x5 x6 x7 x8 x9 x10 x11 (ix3 b s r)
      = ∑ n : Fin 64, basis x1 x8 x9 x10 x11 b s n
          * coeffRows x0 x2 x3 x4 x5 x6 x7 (ix2 b ⟨n.val * 4 + r.val, by have := n.isLt; have := r.isLt; omega⟩) := by
  rw [val_main_v36_apply]
  refine Finset.sum_congr rfl fun n _ => ?_
  have el : lidx_main_v36 (ix3 b s r) n = ix3 b s n := funext fun a => Fin.ext (by
    match a with | ⟨0, _⟩ => rfl | ⟨1, _⟩ => rfl | ⟨2, _⟩ => rfl)
  have er : ridx_main_v36 (ix3 b s r) n = ix3 b n r := funext fun a => Fin.ext (by
    match a with | ⟨0, _⟩ => rfl | ⟨1, _⟩ => rfl | ⟨2, _⟩ => rfl)
  rw [el, er, basis_stage, lower_rows]

/-- The second contraction at (b, s, r): the basis functions against the second half of the rows. -/
theorem contraction_upper (b : Fin 64) (s : Fin 4096) (r : Fin 4) :
    val_main_v38 (F := Ideal) x0 x1 x2 x3 x4 x5 x6 x7 x8 x9 x10 x11 (ix3 b s r)
      = ∑ n : Fin 64, basis x1 x8 x9 x10 x11 b s n
          * coeffRows x0 x2 x3 x4 x5 x6 x7 (ix2 b ⟨(64 + n.val) * 4 + r.val, by have := n.isLt; have := r.isLt; omega⟩) := by
  rw [val_main_v38_apply]
  refine Finset.sum_congr rfl fun n _ => ?_
  have el : lidx_main_v38 (ix3 b s r) n = ix3 b s n := funext fun a => Fin.ext (by
    match a with | ⟨0, _⟩ => rfl | ⟨1, _⟩ => rfl | ⟨2, _⟩ => rfl)
  have er : ridx_main_v38 (ix3 b s r) n = ix3 b n r := funext fun a => Fin.ext (by
    match a with | ⟨0, _⟩ => rfl | ⟨1, _⟩ => rfl | ⟨2, _⟩ => rfl)
  rw [el, er, basis_stage, upper_rows]

/-- THE REFERENCE IS THE SPECIFICATION of the sample array, the four parameter vectors and its own coefficient rows. -/
theorem reference_eq :
    val_main_v42 (F := Ideal) x0 x1 x2 x3 x4 x5 x6 x7 x8 x9 x10 x11
      = result x1 x8 x9 x10 x11 (coeffRows x0 x2 x3 x4 x5 x6 x7) := by
  funext i
  obtain ⟨b, p, r, rfl⟩ : ∃ (b : Fin 64) (p : Fin 8192) (r : Fin 4), i = ix3 b p r := ⟨i 0, i 1, i 2, eq_ix3 i⟩
  have hb := b.isLt; have hp := p.isLt; have hr := r.isLt
  rw [val_main_v42_apply]
  unfold val_main_v41
  by_cases he : p.val % 2 = 0
  · refine (concatenate_pair_apply_left (t := S64x4096x2x4) (s₁ := S64x4096x1x4) (s₂ := S64x4096x1x4) (2 : Fin 4) _ _ _ _ rfl (ix4 b ⟨p.val / 2, half_lt p⟩ (0 : Fin 1) r) ?_).trans ?_
    · intro a
      match a with
      | ⟨0, _⟩ => show b.val = ((b.val * 8192 + p.val) * 4 + r.val) / 32768; omega
      | ⟨1, _⟩ => show p.val / 2 = ((b.val * 8192 + p.val) * 4 + r.val) / 8 % 4096; omega
      | ⟨2, _⟩ => show 0 = ((b.val * 8192 + p.val) * 4 + r.val) / 4 % 2; omega
      | ⟨3, _⟩ => show r.val = ((b.val * 8192 + p.val) * 4 + r.val) % 4; omega
    · rw [val_main_v39_apply]
      have e : idx_main_v39 (ix4 b ⟨p.val / 2, half_lt p⟩ (0 : Fin 1) r) = ix3 b ⟨p.val / 2, half_lt p⟩ r := funext fun a => Fin.ext (by
        match a with | ⟨0, _⟩ => rfl | ⟨1, _⟩ => rfl | ⟨2, _⟩ => rfl)
      rw [e, contraction_lower]
      refine Finset.sum_congr rfl fun n _ => ?_
      show _ * _ = _ * omega _ b p n r
      unfold omega
      refine congrArg _ (congrArg _ (congrArg _ (Fin.ext ?_)))
      show n.val * 4 + r.val = (64 * (p.val % 2) + n.val) * 4 + r.val
      omega
  · refine (concatenate_pair_apply_right (t := S64x4096x2x4) (s₁ := S64x4096x1x4) (s₂ := S64x4096x1x4) (2 : Fin 4) _ _ _ _ rfl rfl (ix4 b ⟨p.val / 2, half_lt p⟩ (0 : Fin 1) r) ?_ ?_).trans ?_
    · intro a ha
      match a with
      | ⟨0, _⟩ => show b.val = ((b.val * 8192 + p.val) * 4 + r.val) / 32768; omega
      | ⟨1, _⟩ => show p.val / 2 = ((b.val * 8192 + p.val) * 4 + r.val) / 8 % 4096; omega
      | ⟨2, _⟩ => exact absurd rfl ha
      | ⟨3, _⟩ => show r.val = ((b.val * 8192 + p.val) * 4 + r.val) % 4; omega
    · show 0 + 1 = ((b.val * 8192 + p.val) * 4 + r.val) / 4 % 2
      omega
    · rw [val_main_v40_apply]
      have e : idx_main_v40 (ix4 b ⟨p.val / 2, half_lt p⟩ (0 : Fin 1) r) = ix3 b ⟨p.val / 2, half_lt p⟩ r := funext fun a => Fin.ext (by
        match a with | ⟨0, _⟩ => rfl | ⟨1, _⟩ => rfl | ⟨2, _⟩ => rfl)
      rw [e, contraction_upper]
      refine Finset.sum_congr rfl fun n _ => ?_
      show _ * _ = _ * omega _ b p n r
      unfold omega
      refine congrArg _ (congrArg _ (congrArg _ (Fin.ext ?_)))
      show (64 + n.val) * 4 + r.val = (64 * (p.val % 2) + n.val) * 4 + r.val
      omega

end Cert.ReferenceIdeal.RefValue

end
-- ==== Proof.Payload.lean ====
/-
  What the kernel body computes from its blocks, read at an index.

  At a grid point the body holds a block of 512 samples per batch row (x0), the four parameter columns
  (x1 = μ, x2 = α, x3 = β, x4 = γ, each [64, 1]) and the transposed coefficient rows (x5, [64, 4, 128]).
  It forms the basis functions h(b, n, s) for the block's samples, and contracts them over n against the first 64
  and the last 64 columns of x5: two [64, 4, 512] results, one per output.
-/
import proofs.«168585_j75015898792235_1_alg».proof.Proof.Gen.KernelIdeal.Skeleton
import proofs.«168585_j75015898792235_1_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.ValueIdx Idealize.ShloMosaic.TcCoe
open scoped BigOperators

namespace Cert.KernelIdeal.Body

open Cert.KernelIdeal Cert.KernelIdeal.Gen Cert.SubspaceBasis

/-- The basis function of the block's sample (b, s) and the n-th parameters, as the body spells it. -/
def blockBasis (x0 : Vec Ideal S64x512 .f32) (x1 x2 x3 x4 : Vec Ideal S64x1 .f32) (b : Fin 64) (n : Fin 64) (s : Fin 512) : EReal :=
  basisAt (x0 (ix2 b s)) (x1 (ix2 n 0)) (x2 (ix2 n 0)) (x3 (ix2 n 0)) (x4 (ix2 n 0))

/-- A sample block spread over the basis axis, read at (b, n, s). -/
theorem sample_spread (x0 : Vec Ideal S64x512 .f32) (b : Fin 64) (n : Fin 64) (s : Fin 512) :
    broadcastTo S64x64x512 (shapeCast S64x1x512 x0 Facts₀.shapeCasts_S64x512_S64x1x512) Facts₀.broadcasts_S64x1x512_S64x64x512 (ix3 b n s) = x0 (ix2 b s) := by
  refine (broadcastTo_apply _ Facts₀.broadcasts_S64x1x512_S64x64x512 (ix3 b n s) (ix3 b (0 : Fin 1) s) fun a => ?_).trans ?_
  · match a with
    | ⟨0, _⟩ => rfl
    | ⟨1, _⟩ => rfl
    | ⟨2, _⟩ => rfl
  · refine shapeCast_apply x0 Facts₀.shapeCasts_S64x512_S64x1x512 (ix3 b (0 : Fin 1) s) (ix2 b s) ?_
    rw [Shape.rowMajor_val_two, Shape.rowMajor_val_three]
    show b.val * 512 + s.val = (b.val * 1 + 0) * 512 + s.val
    omega

/-- A parameter column spread over batch rows and samples, read at (b, n, s). -/
theorem column_spread (x : Vec Ideal S64x1 .f32) (b : Fin 64) (n : Fin 64) (s : Fin 512) :
    broadcastTo S64x64x512 (shapeCast S1x64x1 (shapeCast S64x1 x Facts₀.shapeCasts_S64x1_S64x1) Facts₀.shapeCasts_S64x1_S1x64x1) Facts₀.broadcasts_S1x64x1_S64x64x512 (ix3 b n s)
      = x (ix2 n 0) := by
  rw [shapeCast_self]
  refine (broadcastTo_apply _ Facts₀.broadcasts_S1x64x1_S64x64x512 (ix3 b n s) (ix3 (0 : Fin 1) n (0 : Fin 1)) fun a => ?_).trans ?_
  · match a with
    | ⟨0, _⟩ => rfl
    | ⟨1, _⟩ => rfl
    | ⟨2, _⟩ => rfl
  · refine shapeCast_apply x Facts₀.shapeCasts_S64x1_S1x64x1 (ix3 (0 : Fin 1) n (0 : Fin 1)) (ix2 n 0) ?_
    rw [Shape.rowMajor_val_two, Shape.rowMajor_val_three]
    show n.val * 1 + 0 = (0 * 64 + n.val) * 1 + 0
    omega

/-- The body's elementwise stage at (b, n, s) is the basis function of the block. -/
theorem stage_apply (x0 : Vec Ideal S64x512 .f32) (x1 x2 x3 x4 : Vec Ideal S64x1 .f32) (b : Fin 64) (n : Fin 64) (s : Fin 512) :
    k0_pay1 (F := Ideal) x0 x1 x2 x3 x4 (ix3 b n s) = blockBasis x0 x1 x2 x3 x4 b n s := by
  unfold k0_pay1
  show Ideal.exp (Ideal.ofBits .f32 0x00000000#32 - (_ * (_ - _)) * (_ * (_ - _))) * Ideal.cos (_ * _ + _) = _
  rw [sample_spread, column_spread, column_spread, column_spread, column_spread, Ideal.ofBits_zero_f32, zero_sub_eq_neg]
  rfl

/-! ## The contraction: batch axis 0, the left operand's axis 2 against the right operand's axis 1 -/

theorem left_batch (i : S64x4x512.Idx) (q : dot_S64x4x64_S64x64x512_S64x4x512_2_1_1_2_0_0.contr.Idx) :
    (dot_S64x4x64_S64x64x512_S64x4x512_2_1_1_2_0_0.lhsIdx i q 0).val = (i 0).val := by
  unfold DotDims.lhsIdx
  rw [dif_pos (show (0 : Fin S64x4x64.rank) ∈ dot_S64x4x64_S64x64x512_S64x4x512_2_1_1_2_0_0.lhsBatch by decide)]
  rfl
theorem left_free (i : S64x4x512.Idx) (q : dot_S64x4x64_S64x64x512_S64x4x512_2_1_1_2_0_0.contr.Idx) :
    (dot_S64x4x64_S64x64x512_S64x4x512_2_1_1_2_0_0.lhsIdx i q 1).val = (i 1).val := by
  unfold DotDims.lhsIdx
  rw [dif_neg (show ¬(1 : Fin S64x4x64.rank) ∈ dot_S64x4x64_S64x64x512_S64x4x512_2_1_1_2_0_0.lhsBatch by decide),
    dif_pos (show (1 : Fin S64x4x64.rank) ∈ dot_S64x4x64_S64x64x512_S64x4x512_2_1_1_2_0_0.lhsNonContracting by decide)]
  rfl
theorem left_contr (i : S64x4x512.Idx) (q : dot_S64x4x64_S64x64x512_S64x4x512_2_1_1_2_0_0.contr.Idx) :
    (dot_S64x4x64_S64x64x512_S64x4x512_2_1_1_2_0_0.lhsIdx i q 2).val = (q ⟨0, by decide⟩).val :=
  dot_S64x4x64_S64x64x512_S64x4x512_2_1_1_2_0_0.lhsIdx_val_of_single rfl i q
theorem right_batch (i : S64x4x512.Idx) (q : dot_S64x4x64_S64x64x512_S64x4x512_2_1_1_2_0_0.contr.Idx) :
    (dot_S64x4x64_S64x64x512_S64x4x512_2_1_1_2_0_0.rhsIdx i q 0).val = (i 0).val := by
  unfold DotDims.rhsIdx
  rw [dif_pos (show (0 : Fin S64x64x512.rank) ∈ dot_S64x4x64_S64x64x512_S64x4x512_2_1_1_2_0_0.rhsBatch by decide)]
  rfl
theorem right_contr (i : S64x4x512.Idx) (q : dot_S64x4x64_S64x64x512_S64x4x512_2_1_1_2_0_0.contr.Idx) :
    (dot_S64x4x64_S64x64x512_S64x4x512_2_1_1_2_0_0.rhsIdx i q 1).val = (q ⟨0, by decide⟩).val :=
  dot_S64x4x64_S64x64x512_S64x4x512_2_1_1_2_0_0.rhsIdx_val_of_single rfl i q
theorem right_free (i : S64x4x512.Idx) (q : dot_S64x4x64_S64x64x512_S64x4x512_2_1_1_2_0_0.contr.Idx) :
    (dot_S64x4x64_S64x64x512_S64x4x512_2_1_1_2_0_0.rhsIdx i q 2).val = (i 2).val := by
  unfold DotDims.rhsIdx
  rw [dif_neg (show ¬(2 : Fin S64x64x512.rank) ∈ dot_S64x4x64_S64x64x512_S64x4x512_2_1_1_2_0_0.rhsBatch by decide),
    dif_pos (show (2 : Fin S64x64x512.rank) ∈ dot_S64x4x64_S64x64x512_S64x4x512_2_1_1_2_0_0.rhsNonContracting by decide)]
  rfl

/-- The body's matrix product into a zero accumulator, at (b, r, s): the sum over n of A(b, r, n) · B(b, n, s). -/
theorem contraction_apply (A : FVec Ideal S64x4x64 .bf16) (B : FVec Ideal S64x64x512 .bf16) (b : Fin 64) (r : Fin 4) (s : Fin 512) :
    matmul dot_S64x4x64_S64x64x512_S64x4x512_2_1_1_2_0_0 none A B (constant (F := Ideal) S64x4x512 .f32 0x00000000#32) (ix3 b r s)
      = ∑ n : Fin 64, A (ix3 b r n) * B (ix3 b n s) := by
  simp only [matmul]
  rw [Ideal.matmul_constant_zero_apply, ← Equiv.sum_comp (contrEquiv1 dot_S64x4x64_S64x64x512_S64x4x512_2_1_1_2_0_0 64 rfl rfl).symm]
  refine Finset.sum_congr rfl fun k _ => ?_
  have hk := contrEquiv1_symm_val dot_S64x4x64_S64x64x512_S64x4x512_2_1_1_2_0_0 64 rfl rfl k
  have el : dot_S64x4x64_S64x64x512_S64x4x512_2_1_1_2_0_0.lhsIdx (ix3 b r s) ((contrEquiv1 dot_S64x4x64_S64x64x512_S64x4x512_2_1_1_2_0_0 64 rfl rfl).symm k) = ix3 b r k := funext fun a => Fin.ext (by
    match a with
    | ⟨0, _⟩ => exact left_batch _ _
    | ⟨1, _⟩ => exact left_free _ _
    | ⟨2, _⟩ => exact (left_contr _ _).trans hk)
  have er : dot_S64x4x64_S64x64x512_S64x4x512_2_1_1_2_0_0.rhsIdx (ix3 b r s) ((contrEquiv1 dot_S64x4x64_S64x64x512_S64x4x512_2_1_1_2_0_0 64 rfl rfl).symm k) = ix3 b k s := funext fun a => Fin.ext (by
    match a with
    | ⟨0, _⟩ => exact right_batch _ _
    | ⟨1, _⟩ => exact (right_contr _ _).trans hk
    | ⟨2, _⟩ => exact right_free _ _)
  rw [el, er]

/-- The coefficient block's columns [off, off + 64), read at (b, r, n). -/
theorem columns_apply (x5 : Vec Ideal S64x4x128 .f32) (off : Nat) (hoff : off + 64 ≤ 128)
    (h : S64x4x128.Slices ![0, 0, off] S64x4x64) (b : Fin 64) (r : Fin 4) (n : Fin 64) :
    extractStridedSlice S64x4x64 ![0, 0, off] (k0_pay2 (F := Ideal) x5) h (ix3 b r n)
      = x5 (ix3 b r ⟨off + n.val, by have := n.isLt; omega⟩) := by
  refine (extractStridedSlice_apply _ _ h (ix3 b r n) (ix3 b r ⟨off + n.val, by have := n.isLt; omega⟩) fun a => ?_).trans ?_
  · match a with
    | ⟨0, _⟩ => show b.val = 0 + b.val; omega
    | ⟨1, _⟩ => show r.val = 0 + r.val; omega
    | ⟨2, _⟩ => rfl
  · unfold k0_pay2
    rw [shapeCast_self]
    rfl

/-- THE FIRST OUTPUT'S PAYLOAD at (b, r, s): columns 0..63 of the coefficient block against the basis functions. -/
theorem lower_payload (x0 : Vec Ideal S64x512 .f32) (x1 x2 x3 x4 : Vec Ideal S64x1 .f32) (x5 : Vec Ideal S64x4x128 .f32)
    (b : Fin 64) (r : Fin 4) (s : Fin 512) :
    k0_pay3 (F := Ideal) x0 x1 x2 x3 x4 x5 (ix3 b r s)
      = ∑ n : Fin 64, x5 (ix3 b r ⟨0 + n.val, by have := n.isLt; omega⟩) * blockBasis x0 x1 x2 x3 x4 b n s := by
  unfold k0_pay3
  refine (contraction_apply _ _ b r s).trans (Finset.sum_congr rfl fun n _ => ?_)
  rw [columns_apply x5 0 (by omega), stage_apply]

/-- THE SECOND OUTPUT'S PAYLOAD at (b, r, s): columns 64..127 of the coefficient block against the basis functions. -/
theorem upper_payload (x0 : Vec Ideal S64x512 .f32) (x1 x2 x3 x4 : Vec Ideal S64x1 .f32) (x5 : Vec Ideal S64x4x128 .f32)
    (b : Fin 64) (r : Fin 4) (s : Fin 512) :
    k0_pay4 (F := Ideal) x0 x1 x2 x3 x4 x5 (ix3 b r s)
      = ∑ n : Fin 64, x5 (ix3 b r ⟨64 + n.val, by have := n.isLt; omega⟩) * blockBasis x0 x1 x2 x3 x4 b n s := by
  unfold k0_pay4
  refine (contraction_apply _ _ b r s).trans (Finset.sum_congr rfl fun n _ => ?_)
  rw [columns_apply x5 64 (by omega), stage_apply]

end Cert.KernelIdeal.Body

end
-- ==== Proof.Blocks.lean ====
/-
  From what each grid point writes back to the two output arrays after the region.

  Grid point t handles samples 512·t .. 512·t + 511 of every batch row: it fetches block (0, t) of the sample array,
  the whole of the four parameter columns and of the transposed coefficient rows, and writes back block (0, 0, t) of
  each [64, 4, 4096] output.  So each output array, once every point has written, is ONE function of the arrays the
  region found: at (b, r, s) the sum over n of the coefficient (b, r, off + n) times the basis function of sample
  (b, s) and the n-th parameters, with off = 0 for the first output and 64 for the second.
-/
import proofs.«168585_j75015898792235_1_alg».proof.Proof.Gen.KernelIdeal.Frame
import proofs.«168585_j75015898792235_1_alg».proof.Proof.Payload
import Idealize.ShloMosaic.Lib.Pipeline.Value
import Idealize.ShloMosaic.Lib.ValueIdx

noncomputable section

open Idealize.ShloMosaic Idealize.ShloMosaic.ValueIdx Idealize.ShloMosaic.TcCoe Idealize.SL.Sem
open Idealize.ShloMosaic.Pipeline (Dat)
open scoped BigOperators

namespace Cert.KernelIdeal.Blocks

open Cert.KernelIdeal Cert.KernelIdeal.Gen Cert.KernelIdeal.Body Cert.SubspaceBasis

/-- An output array as a function of the arrays the region finds: the samples `T`, the four parameter columns, the
    transposed coefficient rows `Om`, and the first of the 64 coefficient columns it contracts. -/
def halfArray (off : Nat) (hoff : off + 64 ≤ 128) (T : S64x4096.Idx → EReal) (Mu Al Be Ga : S64x1.Idx → EReal)
    (Om : S64x4x128.Idx → EReal) : S64x4x4096.Idx → EReal :=
  fun i => ∑ n : Fin 64, Om (ix3 (i 0) (i 1) ⟨off + n.val, by have := n.isLt; omega⟩)
    * basisAt (T (ix2 (i 0) (i 2))) (Mu (ix2 n 0)) (Al (ix2 n 0)) (Be (ix2 n 0)) (Ga (ix2 n 0))

section PerPoint

variable (x0 : Vec Ideal S64x512 .f32) (x1 x2 x3 x4 : Vec Ideal S64x1 .f32) (x5 : Vec Ideal S64x4x128 .f32)
  (T : S64x4096.Idx → EReal) (Mu Al Be Ga : S64x1.Idx → EReal) (Om : S64x4x128.Idx → EReal) (q : Nat)
  (h0 : ∀ (y : S64x512.Idx) (k : S64x4096.Idx), (k 0).val = (y 0).val → (k 1).val = q * 512 + (y 1).val → x0 y = T k)
  (h1 : x1 = Mu) (h2 : x2 = Al) (h3 : x3 = Be) (h4 : x4 = Ga) (h5 : x5 = Om)

include h0 h1 h2 h3 h4 h5

/-- The basis function of a block whose samples are samples 512·q .. of the array. -/
theorem blockBasis_eq (b : Fin 64) (n : Fin 64) (s : Fin 512) (s' : Fin 4096) (hs : s'.val = q * 512 + s.val) :
    blockBasis x0 x1 x2 x3 x4 b n s = basisAt (T (ix2 b s')) (Mu (ix2 n 0)) (Al (ix2 n 0)) (Be (ix2 n 0)) (Ga (ix2 n 0)) := by
  unfold blockBasis
  rw [h0 (ix2 b s) (ix2 b s') rfl hs, h1, h2, h3, h4]

/-- What a point stores into the first output is the block of `halfArray 0`. -/
theorem lower_block (j : S64x4x512.Idx) (i : S64x4x4096.Idx) (hi0 : (i 0).val = (j 0).val) (hi1 : (i 1).val = (j 1).val)
    (hi2 : (i 2).val = q * 512 + (j 2).val) :
    k0_pay3 (F := Ideal) x0 x1 x2 x3 x4 x5 j = halfArray 0 (by omega) T Mu Al Be Ga Om i := by
  obtain ⟨b, r, s, rfl⟩ : ∃ (b : Fin 64) (r : Fin 4) (s : Fin 512), j = ix3 b r s := ⟨j 0, j 1, j 2, eq_ix3 j⟩
  obtain ⟨b', r', s', rfl⟩ : ∃ (b' : Fin 64) (r' : Fin 4) (s' : Fin 4096), i = ix3 b' r' s' := ⟨i 0, i 1, i 2, eq_ix3 i⟩
  obtain rfl : b' = b := Fin.ext hi0
  obtain rfl : r' = r := Fin.ext hi1
  rw [lower_payload]
  unfold halfArray
  refine Finset.sum_congr rfl fun n _ => ?_
  rw [blockBasis_eq x0 x1 x2 x3 x4 x5 T Mu Al Be Ga Om q h0 h1 h2 h3 h4 h5 b' n s s' hi2, h5]

/-- What a point stores into the second output is the block of `halfArray 64`. -/
theorem upper_block (j : S64x4x512.Idx) (i : S64x4x4096.Idx) (hi0 : (i 0).val = (j 0).val) (hi1 : (i 1).val = (j 1).val)
    (hi2 : (i 2).val = q * 512 + (j 2).val) :
    k0_pay4 (F := Ideal) x0 x1 x2 x3 x4 x5 j = halfArray 64 (by omega) T Mu Al Be Ga Om i := by
  obtain ⟨b, r, s, rfl⟩ : ∃ (b : Fin 64) (r : Fin 4) (s : Fin 512), j = ix3 b r s := ⟨j 0, j 1, j 2, eq_ix3 j⟩
  obtain ⟨b', r', s', rfl⟩ : ∃ (b' : Fin 64) (r' : Fin 4) (s' : Fin 4096), i = ix3 b' r' s' := ⟨i 0, i 1, i 2, eq_ix3 i⟩
  obtain rfl : b' = b := Fin.ext hi0
  obtain rfl : r' = r := Fin.ext hi1
  rw [upper_payload]
  unfold halfArray
  refine Finset.sum_congr rfl fun n _ => ?_
  rw [blockBasis_eq x0 x1 x2 x3 x4 x5 T Mu Al Be Ga Om q h0 h1 h2 h3 h4 h5 b' n s s' hi2, h5]

end PerPoint

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the eight points: the sample window and the two outputs move along the
    sample axis with the point; every other window stays on its one block. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = 0 ∧ win0_5.index t (1 : Fin 3) = 0 ∧ win0_5.index t (2 : Fin 3) = 0
    ∧ win0_6.index t (0 : Fin 3) = 0 ∧ win0_6.index t (1 : Fin 3) = 0 ∧ win0_6.index t (2 : Fin 3) = t.val
    ∧ win0_7.index t (0 : Fin 3) = 0 ∧ win0_7.index t (1 : Fin 3) = 0 ∧ win0_7.index t (2 : Fin 3) = t.val :=
  (by decide +kernel : ∀ t : Fin grid0.N, _)

/-- The sample window's block at point t is samples 512·t .. of the array. -/
theorem sample_block (c : Dev nD) (t : Fin cfg0.N) (y : S64x512.Idx) (k : S64x4096.Idx)
    (e0 : (k 0).val = (y 0).val) (e1 : (k 1).val = t.val * 512 + (y 1).val) :
    (iblk m c 0 t : Vec Ideal S64x512 .f32) y = (V m c main_arg1 : S64x4096.Idx → EReal) k := by
  obtain ⟨a00, a01, -⟩ := idx_facts t
  show V m c main_arg1 (((cfg0.win 0).blk t).view.emb y) = V m c main_arg1 k
  refine congrArg _ (funext fun a => Fin.ext ?_)
  match a with
  | ⟨0, _⟩ => show win0_0.index t (0 : Fin 2) * 64 + 1 * (y 0).val = (k 0).val; rw [a00, e0]; omega
  | ⟨1, _⟩ => show win0_0.index t (1 : Fin 2) * 512 + 1 * (y 1).val = (k 1).val; rw [a01, e1]; omega

/-- Each parameter window's block is its whole column. -/
theorem mu_block (c : Dev nD) (t : Fin cfg0.N) : (iblk m c 1 t : Vec Ideal S64x1 .f32) = (V m c main_v16 : S64x1.Idx → EReal) := by
  obtain ⟨-, -, a0, a1, -⟩ := idx_facts t
  funext y
  show V m c main_v16 (((cfg0.win 1).blk t).view.emb y) = V m c main_v16 y
  refine congrArg _ (funext fun a => Fin.ext ?_)
  match a with
  | ⟨0, _⟩ => show win0_1.index t (0 : Fin 2) * 64 + 1 * (y 0).val = (y 0).val; rw [a0]; omega
  | ⟨1, _⟩ => show win0_1.index t (1 : Fin 2) * 1 + 1 * (y 1).val = (y 1).val; rw [a1]; omega
theorem alpha_block (c : Dev nD) (t : Fin cfg0.N) : (iblk m c 2 t : Vec Ideal S64x1 .f32) = (V m c main_v17 : S64x1.Idx → EReal) := by
  obtain ⟨-, -, -, -, a0, a1, -⟩ := idx_facts t
  funext y
  show V m c main_v17 (((cfg0.win 2).blk t).view.emb y) = V m c main_v17 y
  refine congrArg _ (funext fun a => Fin.ext ?_)
  match a with
  | ⟨0, _⟩ => show win0_2.index t (0 : Fin 2) * 64 + 1 * (y 0).val = (y 0).val; rw [a0]; omega
  | ⟨1, _⟩ => show win0_2.index t (1 : Fin 2) * 1 + 1 * (y 1).val = (y 1).val; rw [a1]; omega
theorem beta_block (c : Dev nD) (t : Fin cfg0.N) : (iblk m c 3 t : Vec Ideal S64x1 .f32) = (V m c main_v18 : S64x1.Idx → EReal) := by
  obtain ⟨-, -, -, -, -, -, a0, a1, -⟩ := idx_facts t
  funext y
  show V m c main_v18 (((cfg0.win 3).blk t).view.emb y) = V m c main_v18 y
  refine congrArg _ (funext fun a => Fin.ext ?_)
  match a with
  | ⟨0, _⟩ => show win0_3.index t (0 : Fin 2) * 64 + 1 * (y 0).val = (y 0).val; rw [a0]; omega
  | ⟨1, _⟩ => show win0_3.index t (1 : Fin 2) * 1 + 1 * (y 1).val = (y 1).val; rw [a1]; omega
theorem gamma_block (c : Dev nD) (t : Fin cfg0.N) : (iblk m c 4 t : Vec Ideal S64x1 .f32) = (V m c main_v19 : S64x1.Idx → EReal) := by
  obtain ⟨-, -, -, -, -, -, -, -, a0, a1, -⟩ := idx_facts t
  funext y
  show V m c main_v19 (((cfg0.win 4).blk t).view.emb y) = V m c main_v19 y
  refine congrArg _ (funext fun a => Fin.ext ?_)
  match a with
  | ⟨0, _⟩ => show win0_4.index t (0 : Fin 2) * 64 + 1 * (y 0).val = (y 0).val; rw [a0]; omega
  | ⟨1, _⟩ => show win0_4.index t (1 : Fin 2) * 1 + 1 * (y 1).val = (y 1).val; rw [a1]; omega
/-- The coefficient window's block is the whole of the transposed rows. -/
theorem coeff_block (c : Dev nD) (t : Fin cfg0.N) : (iblk m c 5 t : Vec Ideal S64x4x128 .f32) = (V m c main_v15 : S64x4x128.Idx → EReal) := by
  obtain ⟨-, -, -, -, -, -, -, -, -, -, a0, a1, a2, -⟩ := idx_facts t
  funext y
  show V m c main_v15 (((cfg0.win 5).blk t).view.emb y) = V m c main_v15 y
  refine congrArg _ (funext fun a => Fin.ext ?_)
  match a with
  | ⟨0, _⟩ => show win0_5.index t (0 : Fin 3) * 64 + 1 * (y 0).val = (y 0).val; rw [a0]; omega
  | ⟨1, _⟩ => show win0_5.index t (1 : Fin 3) * 4 + 1 * (y 1).val = (y 1).val; rw [a1]; omega
  | ⟨2, _⟩ => show win0_5.index t (2 : Fin 3) * 128 + 1 * (y 2).val = (y 2).val; rw [a2]; omega

/-- The first output as a function of the arrays the region finds. -/
abbrev lowerArray (c : Dev nD) : S64x4x4096.Idx → EReal :=
  halfArray 0 (by omega) (V m c main_arg1) (V m c main_v16) (V m c main_v17) (V m c main_v18) (V m c main_v19) (V m c main_v15)
/-- The second output as a function of the arrays the region finds. -/
abbrev upperArray (c : Dev nD) : S64x4x4096.Idx → EReal :=
  halfArray 64 (by omega) (V m c main_arg1) (V m c main_v16) (V m c main_v17) (V m c main_v18) (V m c main_v19) (V m c main_v15)

/-- WHAT POINT t WRITES BACK to the first output is block t of `lowerArray`. -/
theorem flushed_lower (c : Dev nD) (t : Fin cfg0.N) :
    (dats m 0 c).flushed 6 t = ((cfg0.win 6).blk t).view.read (Elt Ideal) (lowerArray m c) := by
  show (cfg0.win 6).cut (grid0.coords t) ((dats m 0 c).after 6 t) = _
  rw [after0_6]
  unfold out0_6
  rw [View.canon_unit_zero hz3]
  simp only [View.ld_unit_zero (S := S64x512) hz2, View.ld_unit_zero (S := S64x1) hz2, View.ld_unit_zero (S := S64x4x128) hz3]
  obtain ⟨-, -, -, -, -, -, -, -, -, -, -, -, -, a0, a1, a2, -⟩ := idx_facts t
  funext j
  show k0_pay3 (F := Ideal) (iblk m c 0 t) (iblk m c 1 t) (iblk m c 2 t) (iblk m c 3 t) (iblk m c 4 t) (iblk m c 5 t) j
    = lowerArray m c (((cfg0.win 6).blk t).view.emb j)
  refine lower_block (iblk m c 0 t) (iblk m c 1 t) (iblk m c 2 t) (iblk m c 3 t) (iblk m c 4 t) (iblk m c 5 t)
    (V m c main_arg1) (V m c main_v16) (V m c main_v17) (V m c main_v18) (V m c main_v19) (V m c main_v15) t.val
    (sample_block m c t) (mu_block m c t) (alpha_block m c t) (beta_block m c t) (gamma_block m c t) (coeff_block m c t)
    j (((cfg0.win 6).blk t).view.emb j) ?_ ?_ ?_
  · show win0_6.index t (0 : Fin 3) * 64 + 1 * (j 0).val = (j 0).val; rw [a0]; omega
  · show win0_6.index t (1 : Fin 3) * 4 + 1 * (j 1).val = (j 1).val; rw [a1]; omega
  · show win0_6.index t (2 : Fin 3) * 512 + 1 * (j 2).val = t.val * 512 + (j 2).val; rw [a2]; omega

/-- WHAT POINT t WRITES BACK to the second output is block t of `upperArray`. -/
theorem flushed_upper (c : Dev nD) (t : Fin cfg0.N) :
    (dats m 0 c).flushed 7 t = ((cfg0.win 7).blk t).view.read (Elt Ideal) (upperArray m c) := by
  show (cfg0.win 7).cut (grid0.coords t) ((dats m 0 c).after 7 t) = _
  rw [after0_7]
  unfold out0_7
  rw [View.canon_unit_zero hz3]
  simp only [View.ld_unit_zero (S := S64x512) hz2, View.ld_unit_zero (S := S64x1) hz2, View.ld_unit_zero (S := S64x4x128) hz3]
  obtain ⟨-, -, -, -, -, -, -, -, -, -, -, -, -, -, -, -, a0, a1, a2⟩ := idx_facts t
  funext j
  show k0_pay4 (F := Ideal) (iblk m c 0 t) (iblk m c 1 t) (iblk m c 2 t) (iblk m c 3 t) (iblk m c 4 t) (iblk m c 5 t) j
    = upperArray m c (((cfg0.win 7).blk t).view.emb j)
  refine upper_block (iblk m c 0 t) (iblk m c 1 t) (iblk m c 2 t) (iblk m c 3 t) (iblk m c 4 t) (iblk m c 5 t)
    (V m c main_arg1) (V m c main_v16) (V m c main_v17) (V m c main_v18) (V m c main_v19) (V m c main_v15) t.val
    (sample_block m c t) (mu_block m c t) (alpha_block m c t) (beta_block m c t) (gamma_block m c t) (coeff_block m c t)
    j (((cfg0.win 7).blk t).view.emb j) ?_ ?_ ?_
  · show win0_7.index t (0 : Fin 3) * 64 + 1 * (j 0).val = (j 0).val; rw [a0]; omega
  · show win0_7.index t (1 : Fin 3) * 4 + 1 * (j 1).val = (j 1).val; rw [a1]; omega
  · show win0_7.index t (2 : Fin 3) * 512 + 1 * (j 2).val = t.val * 512 + (j 2).val; rw [a2]; omega

/-- An index of the first output is in point t's block iff each coordinate is in the block's range on its axis. -/
theorem mem_block_lower (t : Fin cfg0.N) (i : S64x4x4096.Idx) :
    i ∈ ((cfg0.win 6).blk t).view.set ↔ ∀ a : Fin 3, win0_6.index t a * S64x4x512.size a ≤ (i a).val ∧ (i a).val < win0_6.index t a * S64x4x512.size a + S64x4x512.size a := by
  show i ∈ ((View.whole main_v20_0).slice (win0_6.rect t)).set ↔ _
  rw [View.set_slice_whole, Rect.mem_set_unit]
  exact Iff.rfl
theorem mem_block_upper (t : Fin cfg0.N) (i : S64x4x4096.Idx) :
    i ∈ ((cfg0.win 7).blk t).view.set ↔ ∀ a : Fin 3, win0_7.index t a * S64x4x512.size a ≤ (i a).val ∧ (i a).val < win0_7.index t a * S64x4x512.size a + S64x4x512.size a := by
  show i ∈ ((View.whole main_v20_1).slice (win0_7.rect t)).set ↔ _
  rw [View.set_slice_whole, Rect.mem_set_unit]
  exact Iff.rfl

/-- Sample s of an output lies in the block of point s / 512. -/
theorem cover_lower (i : S64x4x4096.Idx) : ∃ t : Fin cfg0.N, (cfg0.win 6).flush t = true ∧ i ∈ ((cfg0.win 6).blk t).view.set := by
  have h0 : (i 0).val < 64 := (i 0).isLt
  have h1 : (i 1).val < 4 := (i 1).isLt
  have h2 : (i 2).val < 4096 := (i 2).isLt
  have hN : cfg0.N = 8 := N_0
  refine ⟨⟨(i 2).val / 512, by rw [hN]; omega⟩, flush0_6 _, ?_⟩
  rw [mem_block_lower]
  obtain ⟨-, -, -, -, -, -, -, -, -, -, -, -, -, a0, a1, a2, -⟩ := idx_facts ⟨(i 2).val / 512, by rw [hN]; omega⟩
  intro a
  match a with
  | ⟨0, _⟩ => show win0_6.index _ (0 : Fin 3) * 64 ≤ (i 0).val ∧ (i 0).val < win0_6.index _ (0 : Fin 3) * 64 + 64; rw [a0]; omega
  | ⟨1, _⟩ => show win0_6.index _ (1 : Fin 3) * 4 ≤ (i 1).val ∧ (i 1).val < win0_6.index _ (1 : Fin 3) * 4 + 4; rw [a1]; omega
  | ⟨2, _⟩ => show win0_6.index _ (2 : Fin 3) * 512 ≤ (i 2).val ∧ (i 2).val < win0_6.index _ (2 : Fin 3) * 512 + 512; rw [a2]; show (i 2).val / 512 * 512 ≤ (i 2).val ∧ (i 2).val < (i 2).val / 512 * 512 + 512; omega
theorem cover_upper (i : S64x4x4096.Idx) : ∃ t : Fin cfg0.N, (cfg0.win 7).flush t = true ∧ i ∈ ((cfg0.win 7).blk t).view.set := by
  have h0 : (i 0).val < 64 := (i 0).isLt
  have h1 : (i 1).val < 4 := (i 1).isLt
  have h2 : (i 2).val < 4096 := (i 2).isLt
  have hN : cfg0.N = 8 := N_0
  refine ⟨⟨(i 2).val / 512, by rw [hN]; omega⟩, flush0_7 _, ?_⟩
  rw [mem_block_upper]
  obtain ⟨-, -, -, -, -, -, -, -, -, -, -, -, -, -, -, -, a0, a1, a2⟩ := idx_facts ⟨(i 2).val / 512, by rw [hN]; omega⟩
  intro a
  match a with
  | ⟨0, _⟩ => show win0_7.index _ (0 : Fin 3) * 64 ≤ (i 0).val ∧ (i 0).val < win0_7.index _ (0 : Fin 3) * 64 + 64; rw [a0]; omega
  | ⟨1, _⟩ => show win0_7.index _ (1 : Fin 3) * 4 ≤ (i 1).val ∧ (i 1).val < win0_7.index _ (1 : Fin 3) * 4 + 4; rw [a1]; omega
  | ⟨2, _⟩ => show win0_7.index _ (2 : Fin 3) * 512 ≤ (i 2).val ∧ (i 2).val < win0_7.index _ (2 : Fin 3) * 512 + 512; rw [a2]; show (i 2).val / 512 * 512 ≤ (i 2).val ∧ (i 2).val < (i 2).val / 512 * 512 + 512; omega

/-- THE FIRST OUTPUT ARRAY after the run. -/
theorem final_lower (c : Dev nD) : (dats m 0 c).arrAt 6 cfg0.N = lowerArray m c :=
  (dats m 0 c).arrAt_eq_of_cover 6 (lowerArray m c) (fun t _ => flushed_lower m c t) cover_lower
/-- THE SECOND OUTPUT ARRAY after the run. -/
theorem final_upper (c : Dev nD) : (dats m 0 c).arrAt 7 cfg0.N = upperArray m c :=
  (dats m 0 c).arrAt_eq_of_cover 7 (upperArray m c) (fun t _ => flushed_upper m c t) cover_upper

end Cert.KernelIdeal.Blocks

end
-- ==== Proof.Entry.lean ====
/-
  What the kernel's windows find in their arrays when the region is entered.

  Before the region the program computes the flat coefficient rows from `f` (a small network, the same
  operations as the reference's), reshapes them to [64, 128, 4] and exchanges the last two axes; and it reshapes each
  of the four parameter vectors to a column.  The sample array is an argument, untouched.
-/
import proofs.«168585_j75015898792235_1_alg».proof.Proof.Gen.KernelIdeal.Frame
import proofs.«168585_j75015898792235_1_alg».proof.Proof.Gen.ReferenceIdeal.Read
import Idealize.ShloMosaic.Lib.StableHlo.Run
import Idealize.ShloMosaic.Lib.Pipeline.Value
import Idealize.ShloMosaic.Lib.ValueIdx

noncomputable section

open Idealize.ShloMosaic Idealize.ShloMosaic.ValueIdx Idealize.ShloMosaic.TcCoe Idealize.SL.Sem Idealize.ShloMosaic.StableHlo

namespace Cert.KernelIdeal.Entry

open Cert.KernelIdeal Cert.KernelIdeal.Gen

variable (m : (ℓ : Loc nD τ sig) → Buf (Elt Ideal) ℓ)

/-- The flat coefficient rows of the kernel's memory: the reference's own stage applied to the kernel's arguments. -/
abbrev coeffRows (c : Dev nD) : S64x512.Idx → EReal :=
  Cert.ReferenceIdeal.Read.val_main_v33 (F := Ideal) (m ((c : Thread nD τ).loc main_arg0)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- The first parameter vector as a column. -/
theorem column_mu (c : Dev nD) :
    (V m c main_v16 : S64x1.Idx → EReal) = shapeCast S64x1 (m ((c : Thread nD τ).loc main_arg8)) Facts₀.shapeCasts_S64_S64x1 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- The second parameter vector as a column. -/
theorem column_alpha (c : Dev nD) :
    (V m c main_v17 : S64x1.Idx → EReal) = shapeCast S64x1 (m ((c : Thread nD τ).loc main_arg9)) Facts₀.shapeCasts_S64_S64x1 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- The third parameter vector as a column. -/
theorem column_beta (c : Dev nD) :
    (V m c main_v18 : S64x1.Idx → EReal) = shapeCast S64x1 (m ((c : Thread nD τ).loc main_arg10)) Facts₀.shapeCasts_S64_S64x1 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- The fourth parameter vector as a column. -/
theorem column_gamma (c : Dev nD) :
    (V m c main_v19 : S64x1.Idx → EReal) = shapeCast S64x1 (m ((c : Thread nD τ).loc main_arg11)) Facts₀.shapeCasts_S64_S64x1 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- A vector reshaped to a column, read at (n, 0). -/
theorem column_apply (x : S64.Idx → EReal) (n : Fin 64) :
    shapeCast S64x1 x Facts₀.shapeCasts_S64_S64x1 (ix2 n (0 : Fin 1)) = x (ix1 n) := by
  refine shapeCast_apply x Facts₀.shapeCasts_S64_S64x1 (ix2 n (0 : Fin 1)) (ix1 n) ?_
  rw [Shape.rowMajor_val_one, Shape.rowMajor_val_two]
  show n.val = n.val * 1 + 0
  omega

set_option maxHeartbeats 2000000 in
/-- The coefficient window's array: the flat rows reshaped to [64, 128, 4] with the last two axes exchanged. -/
theorem transposed_rows (c : Dev nD) :
    (V m c main_v15 : S64x4x128.Idx → EReal)
      = transpose S64x4x128 [0, 2, 1] (shapeCast S64x128x4 (coeffRows m c) Facts₀.shapeCasts_S64x512_S64x128x4) Facts₀.transposes_S64x128x4_S64x4x128_0_2_1 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  rfl

theorem flat_lt (k : Fin 128) (r : Fin 4) : k.val * 4 + r.val < 512 := by have := k.isLt; have := r.isLt; omega

/-- The coefficient window's array at (b, r, k): entry 4·k + r of row b. -/
theorem transposed_rows_apply (c : Dev nD) (b : Fin 64) (r : Fin 4) (k : Fin 128) :
    (V m c main_v15 : S64x4x128.Idx → EReal) (ix3 b r k) = coeffRows m c (ix2 b ⟨k.val * 4 + r.val, flat_lt k r⟩) := by
  rw [transposed_rows]
  refine (transpose_apply _ _ Facts₀.transposes_S64x128x4_S64x4x128_0_2_1 (ix3 b r k) (ix3 b k r) fun a => ?_).trans ?_
  · match a with
    | ⟨0, _⟩ => rfl
    | ⟨1, _⟩ => rfl
    | ⟨2, _⟩ => rfl
  · refine shapeCast_apply _ Facts₀.shapeCasts_S64x512_S64x128x4 (ix3 b k r) (ix2 b ⟨k.val * 4 + r.val, flat_lt k r⟩) ?_
    rw [Shape.rowMajor_val_two, Shape.rowMajor_val_three]
    show b.val * 512 + (k.val * 4 + r.val) = (b.val * 128 + k.val) * 4 + r.val
    omega

end Cert.KernelIdeal.Entry

end
-- ==== Proof.Result.lean ====
/-
  The kernel's result array.

  After the region the program interleaves its two [64, 4, 4096] outputs along a new last axis, merges that axis into
  the sample axis (position p = 2·s + e takes output e at sample s) and exchanges the last two axes.  Read at (b, p, r)
  the result is therefore output p % 2 at (b, r, p / 2): the sum over n of the coefficient (b, r, 64·(p % 2) + n) —
  entry 4·(64·(p % 2) + n) + r of the flat coefficient row b — times the basis function h(b, p / 2, n).  That is the
  specification with the two factors of each product exchanged.
-/
import proofs.«168585_j75015898792235_1_alg».proof.Proof.Blocks
import proofs.«168585_j75015898792235_1_alg».proof.Proof.Entry
import Idealize.ShloMosaic.Lib.StableHlo.Run

noncomputable section

open Idealize.ShloMosaic Idealize.ShloMosaic.ValueIdx Idealize.ShloMosaic.TcCoe Idealize.SL.Sem Idealize.ShloMosaic.StableHlo
open Idealize.ShloMosaic.Pipeline (Dat)
open scoped BigOperators

namespace Cert.KernelIdeal.Result

open Cert.KernelIdeal Cert.KernelIdeal.Gen Cert.KernelIdeal.Body Cert.KernelIdeal.Blocks Cert.KernelIdeal.Entry Cert.SubspaceBasis

variable (m : (ℓ : Loc nD τ sig) → Buf (Elt Ideal) ℓ) (ρ : Dev nD → PrngReg)

/-- The two outputs interleaved, merged and transposed. -/
def interleave (lo hi : S64x4x4096.Idx → EReal) : S64x8192x4.Idx → EReal :=
  transpose S64x8192x4 [0, 2, 1]
    (shapeCast S64x4x8192
      (concatenate S64x4x4096x2 3
        [⟨S64x4x4096x1, broadcastInDim S64x4x4096x1 ![0, 1, 2] Facts₀.bcast_S64x4x4096_S64x4x4096x1_0_1_2 lo⟩,
         ⟨S64x4x4096x1, broadcastInDim S64x4x4096x1 ![0, 1, 2] Facts₀.bcast_S64x4x4096_S64x4x4096x1_0_1_2 hi⟩]
        Facts₀.concatenates_S64x4x4096x1_S64x4x4096x1_S64x4x4096x2_d3)
      Facts₀.shapeCasts_S64x4x4096x2_S64x4x8192)
    Facts₀.transposes_S64x4x8192_S64x8192x4_0_2_1

/-- What the lines after the region leave in the result buffer: the interleaving of the two output arrays. -/
theorem tail_eq (c : Dev nD) :
    Pipeline.afterTail₀ cfgs (dats m) 0 (V0 m) [hostOps1] c main_v25 = interleave (lowerArray m c) (upperArray m c) := by
  unfold Pipeline.afterTail₀
  show StableHlo.after hostOps1 _ (Proc.devRef .tc main_v25) = _
  after_results
  have e6 : Pipeline.withArrays (cfgs 0).spec c (V0 m c) (fun w => (dats m 0 c).arrAt w (cfgs 0).N) (Proc.devRef .tc main_v20_0)
      = lowerArray m c := (Pipeline.withArrays_arr spec0 launch0.win.arr_inj c _ _ 6).trans (final_lower m c)
  have e7 : Pipeline.withArrays (cfgs 0).spec c (V0 m c) (fun w => (dats m 0 c).arrAt w (cfgs 0).N) (Proc.devRef .tc main_v20_1)
      = upperArray m c := (Pipeline.withArrays_arr spec0 launch0.win.arr_inj c _ _ 7).trans (final_upper m c)
  rw [e6, e7]
  rfl

theorem half_lt' (p : Fin 8192) : p.val / 2 < 4096 := by have := p.isLt; omega

/-- The interleaving read at (b, p, r): output p % 2 at (b, r, p / 2). -/
theorem interleave_apply (lo hi : S64x4x4096.Idx → EReal) (b : Fin 64) (p : Fin 8192) (r : Fin 4) :
    interleave lo hi (ix3 b p r)
      = if p.val % 2 = 0 then lo (ix3 b r ⟨p.val / 2, half_lt' p⟩) else hi (ix3 b r ⟨p.val / 2, half_lt' p⟩) := by
  unfold interleave
  have hb := b.isLt; have hp := p.isLt; have hr := r.isLt
  refine (transpose_apply _ _ Facts₀.transposes_S64x4x8192_S64x8192x4_0_2_1 (ix3 b p r) (ix3 b r p) fun a => ?_).trans ?_
  · match a with
    | ⟨0, _⟩ => rfl
    | ⟨1, _⟩ => rfl
    | ⟨2, _⟩ => rfl
  refine (shapeCast_apply _ Facts₀.shapeCasts_S64x4x4096x2_S64x4x8192 (ix3 b r p)
    (ix4 b r ⟨p.val / 2, half_lt' p⟩ (⟨p.val % 2, by omega⟩ : Fin 2)) ?_).trans ?_
  · rw [Shape.rowMajor_val_four, Shape.rowMajor_val_three]
    show ((b.val * 4 + r.val) * 4096 + p.val / 2) * 2 + p.val % 2 = (b.val * 4 + r.val) * 8192 + p.val
    omega
  by_cases he : p.val % 2 = 0
  · rw [if_pos he]
    refine (concatenate_pair_apply_left (t := S64x4x4096x2) (s₁ := S64x4x4096x1) (s₂ := S64x4x4096x1) (3 : Fin 4) _ _ _ _ rfl
      (ix4 b r ⟨p.val / 2, half_lt' p⟩ (0 : Fin 1)) ?_).trans ?_
    · intro a
      match a with
      | ⟨0, _⟩ => rfl
      | ⟨1, _⟩ => rfl
      | ⟨2, _⟩ => rfl
      | ⟨3, _⟩ => show 0 = p.val % 2; omega
    · refine broadcastInDim_apply _ Facts₀.bcast_S64x4x4096_S64x4x4096x1_0_1_2 lo _ (ix3 b r ⟨p.val / 2, half_lt' p⟩) fun a => ?_
      match a with
      | ⟨0, _⟩ => show b.val = if (64 : Nat) = 1 then 0 else b.val; rw [if_neg (by decide)]
      | ⟨1, _⟩ => show r.val = if (4 : Nat) = 1 then 0 else r.val; rw [if_neg (by decide)]
      | ⟨2, _⟩ => show p.val / 2 = if (4096 : Nat) = 1 then 0 else p.val / 2; rw [if_neg (by decide)]
  · rw [if_neg he]
    refine (concatenate_pair_apply_right (t := S64x4x4096x2) (s₁ := S64x4x4096x1) (s₂ := S64x4x4096x1) (3 : Fin 4) _ _ _ _ rfl rfl
      (ix4 b r ⟨p.val / 2, half_lt' p⟩ (0 : Fin 1)) ?_ ?_).trans ?_
    · intro a ha
      match a with
      | ⟨0, _⟩ => rfl
      | ⟨1, _⟩ => rfl
      | ⟨2, _⟩ => rfl
      | ⟨3, _⟩ => exact absurd rfl ha
    · show 0 + 1 = p.val % 2
      omega
    · refine broadcastInDim_apply _ Facts₀.bcast_S64x4x4096_S64x4x4096x1_0_1_2 hi _ (ix3 b r ⟨p.val / 2, half_lt' p⟩) fun a => ?_
      match a with
      | ⟨0, _⟩ => show b.val = if (64 : Nat) = 1 then 0 else b.val; rw [if_neg (by decide)]
      | ⟨1, _⟩ => show r.val = if (4 : Nat) = 1 then 0 else r.val; rw [if_neg (by decide)]
      | ⟨2, _⟩ => show p.val / 2 = if (4096 : Nat) = 1 then 0 else p.val / 2; rw [if_neg (by decide)]

/-- An output array at (b, r, s) when the region's arrays are: the samples themselves, the four parameter vectors as
    columns, and the flat coefficient rows reshaped and transposed — the coefficients 4·(off + n) + r of row b against
    the basis functions of sample (b, s). -/
theorem halfArray_of (off : Nat) (hoff : off + 64 ≤ 128) (T : S64x4096.Idx → EReal) (Mu Al Be Ga : S64x1.Idx → EReal)
    (Om : S64x4x128.Idx → EReal) (t : S64x4096.Idx → EReal) (mu al be ga : S64.Idx → EReal) (coeff : S64x512.Idx → EReal)
    (hT : T = t) (hMu : Mu = shapeCast S64x1 mu Facts₀.shapeCasts_S64_S64x1) (hAl : Al = shapeCast S64x1 al Facts₀.shapeCasts_S64_S64x1)
    (hBe : Be = shapeCast S64x1 be Facts₀.shapeCasts_S64_S64x1) (hGa : Ga = shapeCast S64x1 ga Facts₀.shapeCasts_S64_S64x1)
    (hOm : ∀ (b : Fin 64) (r : Fin 4) (k : Fin 128), Om (ix3 b r k) = coeff (ix2 b ⟨k.val * 4 + r.val, flat_lt k r⟩))
    (b : Fin 64) (r : Fin 4) (s : Fin 4096) :
    halfArray off hoff T Mu Al Be Ga Om (ix3 b r s)
      = ∑ n : Fin 64, coeff (ix2 b ⟨(off + n.val) * 4 + r.val, by have := n.isLt; have := r.isLt; omega⟩) * basis t mu al be ga b s n := by
  subst hT hMu hAl hBe hGa
  unfold halfArray
  refine Finset.sum_congr rfl fun n _ => ?_
  show Om (ix3 b r ⟨off + n.val, _⟩) * basisAt (T (ix2 b s)) _ _ _ _ = _
  rw [hOm, column_apply, column_apply, column_apply, column_apply]
  rfl

/-- THE KERNEL'S RESULT is the specification of the sample array, the four parameter vectors and the coefficient rows. -/
theorem kernel_value (c : Dev nD) :
    Pipeline.afterTail₀ cfgs (dats m) 0 (V0 m) [hostOps1] c main_v25
      = result (m ((c : Thread nD τ).loc main_arg1)) (m ((c : Thread nD τ).loc main_arg8)) (m ((c : Thread nD τ).loc main_arg9))
          (m ((c : Thread nD τ).loc main_arg10)) (m ((c : Thread nD τ).loc main_arg11)) (coeffRows m c) := by
  rw [tail_eq]
  funext i
  obtain ⟨b, p, r, rfl⟩ : ∃ (b : Fin 64) (p : Fin 8192) (r : Fin 4), i = ix3 b p r := ⟨i 0, i 1, i 2, eq_ix3 i⟩
  have hb := b.isLt; have hp := p.isLt; have hr := r.isLt
  rw [interleave_apply]
  show _ = ∑ n : Fin 64, basis _ _ _ _ _ b ⟨p.val / 2, half_lt p⟩ n * omega (coeffRows m c) b p n r
  by_cases he : p.val % 2 = 0
  · rw [if_pos he]
    refine (halfArray_of 0 (by omega) _ _ _ _ _ _ _ _ _ _ _ (coeffRows m c) (V_main_arg1 m c) (column_mu m c) (column_alpha m c)
      (column_beta m c) (column_gamma m c) (transposed_rows_apply m c) b r ⟨p.val / 2, half_lt' p⟩).trans ?_
    rw [sum_mul_comm]
    refine Finset.sum_congr rfl fun n _ => ?_
    unfold omega
    refine congrArg _ (congrArg _ (congrArg _ (Fin.ext ?_)))
    show (0 + n.val) * 4 + r.val = (64 * (p.val % 2) + n.val) * 4 + r.val
    omega
  · rw [if_neg he]
    refine (halfArray_of 64 (by omega) _ _ _ _ _ _ _ _ _ _ _ (coeffRows m c) (V_main_arg1 m c) (column_mu m c) (column_alpha m c)
      (column_beta m c) (column_gamma m c) (transposed_rows_apply m c) b r ⟨p.val / 2, half_lt' p⟩).trans ?_
    rw [sum_mul_comm]
    refine Finset.sum_congr rfl fun n _ => ?_
    unfold omega
    refine congrArg _ (congrArg _ (congrArg _ (Fin.ext ?_)))
    show (64 + n.val) * 4 + r.val = (64 * (p.val % 2) + n.val) * 4 + r.val
    omega

/-- THE KERNEL'S RUN, read: every weakly fair execution terminates with the result buffer at the specification and the
    twelve argument arrays unchanged. -/
theorem run : θ_run defs (onTc (τ := τ) (main (F := Ideal))) ⟨m, fun _ => 0, ρ⟩ (fun r => ∀ c : Dev nD,
      r.2.mem ((c.tc : Thread nD τ).loc main_v25)
        = result (m ((c : Thread nD τ).loc main_arg1)) (m ((c : Thread nD τ).loc main_arg8)) (m ((c : Thread nD τ).loc main_arg9))
            (m ((c : Thread nD τ).loc main_arg10)) (m ((c : Thread nD τ).loc main_arg11)) (coeffRows m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_v25 (Pipeline.mem_restRefs_of main_v25 (by decide) (by decide))).trans (kernel_value m c),
      (((h c).2 main_arg0 (Pipeline.mem_restRefs_of main_arg0 (by decide) (by decide))).trans (W_main_arg0 m (dats m) c)),
      ((h c).1 0).trans (((dats m 0 c).arrAt_in 0 rfl _).trans ((A_eq m c 0).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c))⟩)
    (run_main m ρ)

end Cert.KernelIdeal.Result

end
-- ==== Proof.lean ====
/-
  The kernel and its reference compute one function on the extended reals.

  Both programs turn `f` into 512 coefficients per batch row by the same small network (two rectified layers and a
  linear one), read them as a [128, 4] matrix ω_b, and form the basis functions
    h(b, s, n) = exp(-(α_n · (t_{b,s} − μ_n))²) · cos(β_n · t_{b,s} + γ_n).
  The result, of twice the sequence length, is B(b, 2·s + e, r) = Σ_{n < 64} h(b, s, n) · ω_b(64·e + n, r).
  The reference contracts h against the two halves of ω_b and interleaves; the kernel works on ω_b transposed, block
  by block of 512 samples, with the coefficient as the left factor of each product and with −x spelt 0 − x, and
  interleaves afterwards.  On the extended reals the product commutes and 0 − x = −x, and a change of float format
  is the identity, so the two results agree index by index whatever the inputs: the precondition is not used.
  The kernel's idealization rewrites nothing, so `preserves` is trivially true.
-/
import proofs.«168585_j75015898792235_1_alg».proof.Defs
import proofs.«168585_j75015898792235_1_alg».proof.Proof.Gen.Kernel
import proofs.«168585_j75015898792235_1_alg».proof.Proof.Gen.Kernel.Skeleton
import proofs.«168585_j75015898792235_1_alg».proof.Proof.Gen.Kernel.Launch
import proofs.«168585_j75015898792235_1_alg».proof.Proof.Gen.Kernel.Points
import proofs.«168585_j75015898792235_1_alg».proof.Proof.Gen.Kernel.Frame
import proofs.«168585_j75015898792235_1_alg».proof.Proof.Gen.KernelIdeal
import proofs.«168585_j75015898792235_1_alg».proof.Proof.Gen.KernelIdeal.Skeleton
import proofs.«168585_j75015898792235_1_alg».proof.Proof.Gen.KernelIdeal.Launch
import proofs.«168585_j75015898792235_1_alg».proof.Proof.Gen.KernelIdeal.Points
import proofs.«168585_j75015898792235_1_alg».proof.Proof.Gen.KernelIdeal.Frame
import proofs.«168585_j75015898792235_1_alg».proof.Proof.Gen.ReferenceIdeal
import proofs.«168585_j75015898792235_1_alg».proof.Proof.Gen.Pre_finite_inputs
import proofs.«168585_j75015898792235_1_alg».proof.Proof.Gen.ReferenceIdeal.Run
import proofs.«168585_j75015898792235_1_alg».proof.Proof.Gen.ReferenceIdeal.Read
import proofs.«168585_j75015898792235_1_alg».proof.Proof.RefIsSpec
import proofs.«168585_j75015898792235_1_alg».proof.Proof.Result
import Idealize.ShloMosaic.Adequacy
import Idealize.ShloMosaic.Init

noncomputable section

namespace Cert.Proof

open Idealize.ShloMosaic Idealize.ShloMosaic.TcCoe Idealize.SL.Sem

/-- The three programs run and leave their arguments as they were. -/
theorem frame_kernel : Cert.frame_Kernel := fun m ρ _ => Cert.Kernel.Gen.frame m ρ
theorem frame_kernel_ideal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten to idealize the kernel. -/
theorem preserves : Cert.preserves_Kernel_KernelIdeal := trivial

/-- From memories agreeing on the arguments both programs end with the result buffer at the specification of the
    same arguments: the kernel's by its run read through the blocks and the interleaving, the reference's by its run
    read one operation at a time. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq, Cert.ReferenceIdeal.RefValue.reference_eq]
  obtain ⟨h0, h1, h2, h3, h4, h5, h6, h7, h8, h9, h10, h11⟩ := hagree c
  rw [h0, h1, h2, h3, h4, h5, h6, h7, h8, h9, h10, h11]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
